-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2 : Shape := ⟨3, ![2, 2048, 2]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x2 : S_.BroadcastsInDim S2x2048x2 (![] : Fin 0 → Fin S2x2048x2.rank)
  reducesTo_S2x2048x2_S_d0_1_2 : S2x2048x2.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn_part1 {F : FTy → Type} [FloatOps F] (main_arg5 : FVec F S8x1024x4096 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024x4096 .f32 := Host.absf main_arg5
  let main_cst_6 : FVec F S_ .f32 := constant S_ .f32 0x7F800000#32
  let main_v20 : FVec F S8x1024x4096 .f32 := broadcastInDim S8x1024x4096 ![] bcast_S_S8x1024x4096 main_cst_6
  let main_v21 : IVec S8x1024x4096 1 := cmpf .olt main_v19 main_v20
  let main_c_7 : IVec S_ 1 := constantI S_ 1 1#1
  let main_v22 : IVec S_ 1 := (fun x v => Host.reduce IntOp.andi x v reducesTo_S8x1024x4096_S_d0_1_2 h_S_) main_v21 main_c_7
  let main_v23 : IVec S_ 1 := andi main_v18 main_v22
  main_v23

def fn {F : FTy → Type} [FloatOps F] (main_arg0 : FVec F S2x2048x1024 .f32) (main_arg1 : IVec S2x2048x2 32) (main_arg2 : FVec F S2x2048x2 .f32) (main_arg3 : FVec F S8x4096x1024 .f32) (main_arg4 : FVec F S8x4096x1024 .f32) (main_arg5 : FVec F S8x1024x4096 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x2 .f32 := Host.absf main_arg2
  let main_cst_0 : FVec F S_ .f32 := constant S_ .f32 0x7F800000#32
  let main_v5 : FVec F S2x2048x2 .f32 := broadcastInDim S2x2048x2 ![] bcast_S_S2x2048x2 main_cst_0
  let main_v6 : IVec S2x2048x2 1 := cmpf .olt main_v4 main_v5
  let main_c_1 : IVec S_ 1 := constantI S_ 1 1#1
  let main_v7 : IVec S_ 1 := (fun x v => Host.reduce IntOp.andi x v reducesTo_S2x2048x2_S_d0_1_2 h_S_) main_v6 main_c_1
  let main_v8 : IVec S_ 1 := andi main_v3 main_v7
  let main_v9 : FVec F S8x4096x1024 .f32 := Host.absf main_arg3
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg5 main_v13 main_v16
-- ==== Kernel.lean ====
abbrev S2x2048x1024 : Shape := ⟨3, ![2, 2048, 1024]⟩
abbrev S2x2048x2 : Shape := ⟨3, ![2, 2048, 2]⟩
abbrev S8x4096x1024 : Shape := ⟨3, ![8, 4096, 1024]⟩
abbrev S8x1024x4096 : Shape := ⟨3, ![8, 1024, 4096]⟩
abbrev S4096x1024 : Shape := ⟨2, ![4096, 1024]⟩
abbrev S4096x2 : Shape := ⟨2, ![4096, 2]⟩
abbrev S1024x1024 : Shape := ⟨2, ![1024, 1024]⟩
abbrev S1024x2 : Shape := ⟨2, ![1024, 2]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2, .i32⟩
  | .hbm, ⟨2, _⟩ => ⟨S2x2048x2, .f32⟩
  | .hbm, ⟨3, _⟩ => ⟨S8x4096x1024, .f32⟩
  | .hbm, ⟨4, _⟩ => ⟨S8x4096x1024, .f32⟩
  | .hbm, ⟨5, _⟩ => ⟨S8x1024x4096, .f32⟩
  | .hbm, ⟨6, _⟩ => ⟨S4096x1024, .f32⟩
  | .hbm, ⟨7, _⟩ => ⟨S4096x1024, .bf16⟩
  | .hbm, ⟨8, _⟩ => ⟨S4096x2, .i32⟩
  | .hbm, ⟨9, _⟩ => ⟨S4096x2, .f32⟩
  | .hbm, ⟨10, _⟩ => ⟨S8x4096x1024, .bf16⟩
  | .hbm, ⟨11, _⟩ => ⟨S8x4096x1024, .bf16⟩
  | .hbm, ⟨12, _⟩ => ⟨S8x1024x4096, .bf16⟩
  | .hbm, ⟨13, _⟩ => ⟨S4096x1024, .f32⟩
  | .hbm, ⟨14, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2, .i32⟩
  | .local _ .vmem, ⟨3, _⟩ => ⟨S1024x2, .i32⟩
  | .local _ .vmem, ⟨4, _⟩ => ⟨S1024x2, .f32⟩
  | .local _ .vmem, ⟨5, _⟩ => ⟨S1024x2, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  shapeCasts_S2x2048x1024_S4096x1024 : S2x2048x1024.ShapeCasts S4096x1024
  bitsLt_bf16_f32 : FTy.bits .bf16 < FTy.bits .f32
  shapeCasts_S2x2048x2_S4096x2 : S2x2048x2.ShapeCasts S4096x2
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  reduces_S1024x2_S1024 : S1024x2.Reduces [1] S1024
  shapeCasts_S1024_S1024x1 : S1024.ShapeCasts S1024x1
  broadcasts_S1024x1_S1024x1024 : S1024x1.Broadcasts S1024x1024
  shapeCasts_S4096x1024_S2x2048x1024 : S4096x1024.ShapeCasts S2x2048x1024
  dot_S1024x1024_S512x1024_S1024x512_1_1_0_0_n_n_wf : DotDims.WF S1024x1024 S512x1024 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S4096x2.size a
  hwx0_1 : ∀ i : grid0.Coords, EltTy.bits .i32 = 32 ∨ (Rect.block (s := S4096x2) S1024x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S4096x2.size a
  hwx0_2 : ∀ i : grid0.Coords, EltTy.bits .f32 = 32 ∨ (Rect.block (s := S4096x2) S1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .bf16 = 32 ∨ (Rect.block (s := S8x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x1024x4096.size a
  hwx0_5 : ∀ i : grid0.Coords, EltTy.bits .bf16 = 32 ∨ (Rect.block (s := S8x1024x4096) S1x1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x1024.size a
  hwx0_6 : ∀ i : grid0.Coords, EltTy.bits .f32 = 32 ∨ (Rect.block (s := S4096x1024) S1024x1024.size (cc0_transform_6 i) (hinb0_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x2048x2 : Shape := ⟨3, ![2, 2048, 2]⟩
abbrev S8x4096x1024 : Shape := ⟨3, ![8, 4096, 1024]⟩
abbrev S8x1024x4096 : Shape := ⟨3, ![8, 1024, 4096]⟩
abbrev S4096x1024 : Shape := ⟨2, ![4096, 1024]⟩
abbrev S4096x2 : Shape := ⟨2, ![4096, 2]⟩
abbrev S_ : Shape := ⟨0, ![]⟩
abbrev S4096 : Shape := ⟨1, ![4096]⟩
abbrev S1x4096x1024 : Shape := ⟨3, ![1, 4096, 1024]⟩
abbrev S1024x4096 : Shape := ⟨2, ![1024, 4096]⟩
abbrev S4096x4096 : Shape := ⟨2, ![4096, 4096]⟩
abbrev S4096x1 : Shape := ⟨2, ![4096, 1]⟩
abbrev S1x1024x4096 : Shape := ⟨3, ![1, 1024, 4096]⟩

abbrev nBuf : Space → Nat
  | .hbm => 292
  | .vmem => 0
  | .smem => 0
  | _ => 0

abbrev hbmTy0_0 (i : Nat) : BufTy := match i % 128 with
  | 0 => ⟨S2x2048x1024, .f32⟩
  | 1 => ⟨S2x2048x2, .i32⟩
  | 2 => ⟨S2x2048x2, .f32⟩
  | 3 => ⟨S8x4096x1024, .f32⟩
  | 4 => ⟨S8x4096x1024, .f32⟩
  | 5 => ⟨S8x1024x4096, .f32⟩
  | 6 => ⟨S4096x1024, .f32⟩
  | 7 => ⟨S4096x2, .i32⟩
  | 8 => ⟨S4096x2, .f32⟩
  | 9 => ⟨S_, .f32⟩
  | 10 => ⟨S4096x1024, .f32⟩
  | 11 => ⟨S_, .i32⟩
  | 12 => ⟨S4096x2, .i32⟩
  | 13 => ⟨S4096x2, .i1⟩
  | 14 => ⟨S_, .f32⟩
  | 15 => ⟨S_, .f32⟩
  | 16 => ⟨S4096x2, .f32⟩
  | 17 => ⟨S4096x2, .f32⟩
  | 18 => ⟨S_, .f32⟩
  | 19 => ⟨S4096, .f32⟩
  | 20 => ⟨S1x4096x1024, .f32⟩
  | 21 => ⟨S4096x1024, .f32⟩
  | 22 => ⟨S1024x4096, .f32⟩
  | 23 => ⟨S4096x4096, .f32⟩
  | 24 => ⟨S1x4096x1024, .f32⟩
  | 25 => ⟨S4096x1024, .f32⟩
  | 26 => ⟨S1024x4096, .f32⟩
  | 27 => ⟨S4096x4096, .f32⟩
  | 28 => ⟨S4096x4096, .f32⟩
  | 29 => ⟨S4096x4096, .f32⟩
  | 30 => ⟨S_, .f32⟩
  | 31 => ⟨S4096x4096, .f32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S4096x4096, .f32⟩
  | 38 => ⟨S4096x1, .f32⟩
  | 39 => ⟨S1x1024x4096, .f32⟩
  | 40 => ⟨S1024x4096, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .i32⟩
  | 47 => ⟨S4096x2, .i32⟩
  | 48 => ⟨S4096x2, .i1⟩
  | 49 => ⟨S_, .f32⟩
  | 50 => ⟨S_, .f32⟩
  | 51 => ⟨S4096x2, .f32⟩
  | 52 => ⟨S4096x2, .f32⟩
  | 53 => ⟨S_, .f32⟩
  | 54 => ⟨S4096, .f32⟩
  | 55 => ⟨S1x4096x1024, .f32⟩
  | 56 => ⟨S4096x1024, .f32⟩
  | 57 => ⟨S1024x4096, .f32⟩
  | 58 => ⟨S4096x4096, .f32⟩
  | 59 => ⟨S1x4096x1024, .f32⟩
  | 60 => ⟨S4096x1024, .f32⟩
  | 61 => ⟨S1024x4096, .f32⟩
  | 62 => ⟨S4096x4096, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x4096, .f32⟩
  | 72 => ⟨S4096x4096, .f32⟩
  | 73 => ⟨S4096x1, .f32⟩
  | 74 => ⟨S1x1024x4096, .f32⟩
  | 75 => ⟨S1024x4096, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S_, .i32⟩
  | 82 => ⟨S4096x2, .i32⟩
  | 83 => ⟨S4096x2, .i1⟩
  | 84 => ⟨S_, .f32⟩
  | 85 => ⟨S_, .f32⟩
  | 86 => ⟨S4096x2, .f32⟩
  | 87 => ⟨S4096x2, .f32⟩
  | 88 => ⟨S_, .f32⟩
  | 89 => ⟨S4096, .f32⟩
  | 90 => ⟨S1x4096x1024, .f32⟩
  | 91 => ⟨S4096x1024, .f32⟩
  | 92 => ⟨S1024x4096, .f32⟩
  | 93 => ⟨S4096x4096, .f32⟩
  | 94 => ⟨S1x4096x1024, .f32⟩
  | 95 => ⟨S4096x1024, .f32⟩
  | 96 => ⟨S1024x4096, .f32⟩
  | 97 => ⟨S4096x4096, .f32⟩
  | 98 => ⟨S4096x4096, .f32⟩
  | 99 => ⟨S4096x4096, .f32⟩
  | 100 => ⟨S_, .f32⟩
  | 101 => ⟨S4096x4096, .f32⟩
  | 102 => ⟨S4096x4096, .f32⟩
  | 103 => ⟨S_, .f32⟩
  | 104 => ⟨S4096x4096, .f32⟩
  | 105 => ⟨S4096x4096, .f32⟩
  | 106 => ⟨S4096x4096, .f32⟩
  | 107 => ⟨S4096x4096, .f32⟩
  | 108 => ⟨S4096x1, .f32⟩
  | 109 => ⟨S1x1024x4096, .f32⟩
  | 110 => ⟨S1024x4096, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .i32⟩
  | 117 => ⟨S4096x2, .i32⟩
  | 118 => ⟨S4096x2, .i1⟩
  | 119 => ⟨S_, .f32⟩
  | 120 => ⟨S_, .f32⟩
  | 121 => ⟨S4096x2, .f32⟩
  | 122 => ⟨S4096x2, .f32⟩
  | 123 => ⟨S_, .f32⟩
  | 124 => ⟨S4096, .f32⟩
  | 125 => ⟨S1x4096x1024, .f32⟩
  | 126 => ⟨S4096x1024, .f32⟩
  | 127 => ⟨S1024x4096, .f32⟩
  | _ => ⟨S2x2048x1024, .f32⟩

abbrev hbmTy0_1 (i : Nat) : BufTy := match i % 128 with
  | 0 => ⟨S4096x4096, .f32⟩
  | 1 => ⟨S1x4096x1024, .f32⟩
  | 2 => ⟨S4096x1024, .f32⟩
  | 3 => ⟨S1024x4096, .f32⟩
  | 4 => ⟨S4096x4096, .f32⟩
  | 5 => ⟨S4096x4096, .f32⟩
  | 6 => ⟨S4096x4096, .f32⟩
  | 7 => ⟨S_, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S4096x4096, .f32⟩
  | 14 => ⟨S4096x4096, .f32⟩
  | 15 => ⟨S4096x1, .f32⟩
  | 16 => ⟨S1x1024x4096, .f32⟩
  | 17 => ⟨S1024x4096, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S_, .i32⟩
  | 24 => ⟨S4096x2, .i32⟩
  | 25 => ⟨S4096x2, .i1⟩
  | 26 => ⟨S_, .f32⟩
  | 27 => ⟨S_, .f32⟩
  | 28 => ⟨S4096x2, .f32⟩
  | 29 => ⟨S4096x2, .f32⟩
  | 30 => ⟨S_, .f32⟩
  | 31 => ⟨S4096, .f32⟩
  | 32 => ⟨S1x4096x1024, .f32⟩
  | 33 => ⟨S4096x1024, .f32⟩
  | 34 => ⟨S1024x4096, .f32⟩
  | 35 => ⟨S4096x4096, .f32⟩
  | 36 => ⟨S1x4096x1024, .f32⟩
  | 37 => ⟨S4096x1024, .f32⟩
  | 38 => ⟨S1024x4096, .f32⟩
  | 39 => ⟨S4096x4096, .f32⟩
  | 40 => ⟨S4096x4096, .f32⟩
  | 41 => ⟨S4096x4096, .f32⟩
  | 42 => ⟨S_, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S4096x4096, .f32⟩
  | 50 => ⟨S4096x1, .f32⟩
  | 51 => ⟨S1x1024x4096, .f32⟩
  | 52 => ⟨S1024x4096, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S_, .i32⟩
  | 59 => ⟨S4096x2, .i32⟩
  | 60 => ⟨S4096x2, .i1⟩
  | 61 => ⟨S_, .f32⟩
  | 62 => ⟨S_, .f32⟩
  | 63 => ⟨S4096x2, .f32⟩
  | 64 => ⟨S4096x2, .f32⟩
  | 65 => ⟨S_, .f32⟩
  | 66 => ⟨S4096, .f32⟩
  | 67 => ⟨S1x4096x1024, .f32⟩
  | 68 => ⟨S4096x1024, .f32⟩
  | 69 => ⟨S1024x4096, .f32⟩
  | 70 => ⟨S4096x4096, .f32⟩
  | 71 => ⟨S1x4096x1024, .f32⟩
  | 72 => ⟨S4096x1024, .f32⟩
  | 73 => ⟨S1024x4096, .f32⟩
  | 74 => ⟨S4096x4096, .f32⟩
  | 75 => ⟨S4096x4096, .f32⟩
  | 76 => ⟨S4096x4096, .f32⟩
  | 77 => ⟨S_, .f32⟩
  | 78 => ⟨S4096x4096, .f32⟩
  | 79 => ⟨S4096x4096, .f32⟩
  | 80 => ⟨S_, .f32⟩
  | 81 => ⟨S4096x4096, .f32⟩
  | 82 => ⟨S4096x4096, .f32⟩
  | 83 => ⟨S4096x4096, .f32⟩
  | 84 => ⟨S4096x4096, .f32⟩
  | 85 => ⟨S4096x1, .f32⟩
  | 86 => ⟨S1x1024x4096, .f32⟩
  | 87 => ⟨S1024x4096, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .i32⟩
  | 94 => ⟨S4096x2, .i32⟩
  | 95 => ⟨S4096x2, .i1⟩
  | 96 => ⟨S_, .f32⟩
  | 97 => ⟨S_, .f32⟩
  | 98 => ⟨S4096x2, .f32⟩
  | 99 => ⟨S4096x2, .f32⟩
  | 100 => ⟨S_, .f32⟩
  | 101 => ⟨S4096, .f32⟩
  | 102 => ⟨S1x4096x1024, .f32⟩
  | 103 => ⟨S4096x1024, .f32⟩
  | 104 => ⟨S1024x4096, .f32⟩
  | 105 => ⟨S4096x4096, .f32⟩
  | 106 => ⟨S1x4096x1024, .f32⟩
  | 107 => ⟨S4096x1024, .f32⟩
  | 108 => ⟨S1024x4096, .f32⟩
  | 109 => ⟨S4096x4096, .f32⟩
  | 110 => ⟨S4096x4096, .f32⟩
  | 111 => ⟨S4096x4096, .f32⟩
  | 112 => ⟨S_, .f32⟩
  | 113 => ⟨S4096x4096, .f32⟩
  | 114 => ⟨S4096x4096, .f32⟩
  | 115 => ⟨S_, .f32⟩
  | 116 => ⟨S4096x4096, .f32⟩
  | 117 => ⟨S4096x4096, .f32⟩
  | 118 => ⟨S4096x4096, .f32⟩
  | 119 => ⟨S4096x4096, .f32⟩
  | 120 => ⟨S4096x1, .f32⟩
  | 121 => ⟨S1x1024x4096, .f32⟩
  | 122 => ⟨S1024x4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S2x2048x1024, .f32⟩

abbrev hbmTy0_2 (i : Nat) : BufTy := match i % 128 with
  | 0 => ⟨S_, .i32⟩
  | 1 => ⟨S4096x2, .i32⟩
  | 2 => ⟨S4096x2, .i1⟩
  | 3 => ⟨S_, .f32⟩
  | 4 => ⟨S_, .f32⟩
  | 5 => ⟨S4096x2, .f32⟩
  | 6 => ⟨S4096x2, .f32⟩
  | 7 => ⟨S_, .f32⟩
  | 8 => ⟨S4096, .f32⟩
  | 9 => ⟨S1x4096x1024, .f32⟩
  | 10 => ⟨S4096x1024, .f32⟩
  | 11 => ⟨S1024x4096, .f32⟩
  | 12 => ⟨S4096x4096, .f32⟩
  | 13 => ⟨S1x4096x1024, .f32⟩
  | 14 => ⟨S4096x1024, .f32⟩
  | 15 => ⟨S1024x4096, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S4096x4096, .f32⟩
  | 27 => ⟨S4096x1, .f32⟩
  | 28 => ⟨S1x1024x4096, .f32⟩
  | 29 => ⟨S1024x4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_5 : Ref sig .tc := ⟨.hbm, 81, rfl⟩
abbrev main_v48 : Ref sig .tc := ⟨.hbm, 82, rfl⟩
abbrev main_v49 : Ref sig .tc := ⟨.hbm, 83, rfl⟩
abbrev main_cst_6 : Ref sig .tc := ⟨.hbm, 84, rfl⟩
abbrev main_call4_v0 : Ref sig .tc := ⟨.hbm, 85, rfl⟩
abbrev main_call4_v1 : Ref sig .tc := ⟨.hbm, 86, rfl⟩
abbrev main_v50 : Ref sig .tc := ⟨.hbm, 87, rfl⟩
abbrev main_cst_7 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call5_v0 : Ref sig .tc := ⟨.hbm, 98, rfl⟩
abbrev main_call5_v1 : Ref sig .tc := ⟨.hbm, 99, rfl⟩
abbrev main_call5_cst : Ref sig .tc := ⟨.hbm, 100, rfl⟩
abbrev main_call5_v2 : Ref sig .tc := ⟨.hbm, 101, rfl⟩
abbrev main_call5_v3 : Ref sig .tc := ⟨.hbm, 102, rfl⟩
abbrev main_call5_cst_0 : Ref sig .tc := ⟨.hbm, 103, rfl⟩
abbrev main_call5_v4 : Ref sig .tc := ⟨.hbm, 104, rfl⟩
abbrev main_call5_v5 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_8 : Ref sig .tc := ⟨.hbm, 116, rfl⟩
abbrev main_v70 : Ref sig .tc := ⟨.hbm, 117, rfl⟩
abbrev main_v71 : Ref sig .tc := ⟨.hbm, 118, rfl⟩
abbrev main_cst_9 : Ref sig .tc := ⟨.hbm, 119, rfl⟩
abbrev main_call6_v0 : Ref sig .tc := ⟨.hbm, 120, rfl⟩
abbrev main_call6_v1 : Ref sig .tc := ⟨.hbm, 121, rfl⟩
abbrev main_v72 : Ref sig .tc := ⟨.hbm, 122, rfl⟩
abbrev main_cst_10 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_call7_v0 : Ref sig .tc := ⟨.hbm, 133, rfl⟩
abbrev main_call7_v1 : Ref sig .tc := ⟨.hbm, 134, rfl⟩
abbrev main_call7_cst : Ref sig .tc := ⟨.hbm, 135, rfl⟩
abbrev main_call7_v2 : Ref sig .tc := ⟨.hbm, 136, rfl⟩
abbrev main_call7_v3 : Ref sig .tc := ⟨.hbm, 137, rfl⟩
abbrev main_call7_cst_0 : Ref sig .tc := ⟨.hbm, 138, rfl⟩
abbrev main_call7_v4 : Ref sig .tc := ⟨.hbm, 139, rfl⟩
abbrev main_call7_v5 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_c_11 : Ref sig .tc := ⟨.hbm, 151, rfl⟩
abbrev main_v92 : Ref sig .tc := ⟨.hbm, 152, rfl⟩
abbrev main_v93 : Ref sig .tc := ⟨.hbm, 153, rfl⟩
abbrev main_cst_12 : Ref sig .tc := ⟨.hbm, 154, rfl⟩
abbrev main_call8_v0 : Ref sig .tc := ⟨.hbm, 155, rfl⟩
abbrev main_call8_v1 : Ref sig .tc := ⟨.hbm, 156, rfl⟩
abbrev main_v94 : Ref sig .tc := ⟨.hbm, 157, rfl⟩
abbrev main_cst_13 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_call9_v0 : Ref sig .tc := ⟨.hbm, 168, rfl⟩
abbrev main_call9_v1 : Ref sig .tc := ⟨.hbm, 169, rfl⟩
abbrev main_call9_cst : Ref sig .tc := ⟨.hbm, 170, rfl⟩
abbrev main_call9_v2 : Ref sig .tc := ⟨.hbm, 171, rfl⟩
abbrev main_call9_v3 : Ref sig .tc := ⟨.hbm, 172, rfl⟩
abbrev main_call9_cst_0 : Ref sig .tc := ⟨.hbm, 173, rfl⟩
abbrev main_call9_v4 : Ref sig .tc := ⟨.hbm, 174, rfl⟩
abbrev main_call9_v5 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_c_14 : Ref sig .tc := ⟨.hbm, 186, rfl⟩
abbrev main_v114 : Ref sig .tc := ⟨.hbm, 187, rfl⟩
abbrev main_v115 : Ref sig .tc := ⟨.hbm, 188, rfl⟩
abbrev main_cst_15 : Ref sig .tc := ⟨.hbm, 189, rfl⟩
abbrev main_call10_v0 : Ref sig .tc := ⟨.hbm, 190, rfl⟩
abbrev main_call10_v1 : Ref sig .tc := ⟨.hbm, 191, rfl⟩
abbrev main_v116 : Ref sig .tc := ⟨.hbm, 192, rfl⟩
abbrev main_cst_16 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_call11_v0 : Ref sig .tc := ⟨.hbm, 203, rfl⟩
abbrev main_call11_v1 : Ref sig .tc := ⟨.hbm, 204, rfl⟩
abbrev main_call11_cst : Ref sig .tc := ⟨.hbm, 205, rfl⟩
abbrev main_call11_v2 : Ref sig .tc := ⟨.hbm, 206, rfl⟩
abbrev main_call11_v3 : Ref sig .tc := ⟨.hbm, 207, rfl⟩
abbrev main_call11_cst_0 : Ref sig .tc := ⟨.hbm, 208, rfl⟩
abbrev main_call11_v4 : Ref sig .tc := ⟨.hbm, 209, rfl⟩
abbrev main_call11_v5 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_17 : Ref sig .tc := ⟨.hbm, 221, rfl⟩
abbrev main_v136 : Ref sig .tc := ⟨.hbm, 222, rfl⟩
abbrev main_v137 : Ref sig .tc := ⟨.hbm, 223, rfl⟩
abbrev main_cst_18 : Ref sig .tc := ⟨.hbm, 224, rfl⟩
abbrev main_call12_v0 : Ref sig .tc := ⟨.hbm, 225, rfl⟩
abbrev main_call12_v1 : Ref sig .tc := ⟨.hbm, 226, rfl⟩
abbrev main_v138 : Ref sig .tc := ⟨.hbm, 227, rfl⟩
abbrev main_cst_19 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_call13_v0 : Ref sig .tc := ⟨.hbm, 238, rfl⟩
abbrev main_call13_v1 : Ref sig .tc := ⟨.hbm, 239, rfl⟩
abbrev main_call13_cst : Ref sig .tc := ⟨.hbm, 240, rfl⟩
abbrev main_call13_v2 : Ref sig .tc := ⟨.hbm, 241, rfl⟩
abbrev main_call13_v3 : Ref sig .tc := ⟨.hbm, 242, rfl⟩
abbrev main_call13_cst_0 : Ref sig .tc := ⟨.hbm, 243, rfl⟩
abbrev main_call13_v4 : Ref sig .tc := ⟨.hbm, 244, rfl⟩
abbrev main_call13_v5 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_c_20 : Ref sig .tc := ⟨.hbm, 256, rfl⟩
abbrev main_v158 : Ref sig .tc := ⟨.hbm, 257, rfl⟩
abbrev main_v159 : Ref sig .tc := ⟨.hbm, 258, rfl⟩
abbrev main_cst_21 : Ref sig .tc := ⟨.hbm, 259, rfl⟩
abbrev main_call14_v0 : Ref sig .tc := ⟨.hbm, 260, rfl⟩
abbrev main_call14_v1 : Ref sig .tc := ⟨.hbm, 261, rfl⟩
abbrev main_v160 : Ref sig .tc := ⟨.hbm, 262, rfl⟩
abbrev main_cst_22 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_call15_v0 : Ref sig .tc := ⟨.hbm, 273, rfl⟩
abbrev main_call15_v1 : Ref sig .tc := ⟨.hbm, 274, rfl⟩
abbrev main_call15_cst : Ref sig .tc := ⟨.hbm, 275, rfl⟩
abbrev main_call15_v2 : Ref sig .tc := ⟨.hbm, 276, rfl⟩
abbrev main_call15_v3 : Ref sig .tc := ⟨.hbm, 277, rfl⟩
abbrev main_call15_cst_0 : Ref sig .tc := ⟨.hbm, 278, rfl⟩
abbrev main_call15_v4 : Ref sig .tc := ⟨.hbm, 279, rfl⟩
abbrev main_call15_v5 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩

abbrev nD : Nat := 1
abbrev τ : Topo := Topo.v7x

variable {F : FTy → Type} [FloatOps F]

class Facts₀ : Prop where
  shapeCasts_S2x2048x1024_S4096x1024 : S2x2048x1024.ShapeCasts S4096x1024
  shapeCasts_S2x2048x2_S4096x2 : S2x2048x2.ShapeCasts S4096x2
  bcast_S_S4096x1024 : S_.BroadcastsInDim S4096x1024 (![] : Fin 0 → Fin S4096x1024.rank)
  bcast_S_S4096x2 : S_.BroadcastsInDim S4096x2 (![] : Fin 0 → Fin S4096x2.rank)
  reducesTo_S4096x2_S4096_d1 : S4096x2.ReducesTo [1] S4096
  h_S_ : 0 < S_.numel
  slices_S8x4096x1024_S1x4096x1024_0_0_0 : S8x4096x1024.Slices ![0, 0, 0] S1x4096x1024
  shapeCasts_S1x4096x1024_S4096x1024 : S1x4096x1024.ShapeCasts S4096x1024
  transposes_S4096x1024_S1024x4096_1_0 : S4096x1024.Transposes [1, 0] S1024x4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  slices_S8x1024x4096_S1x1024x4096_0_0_0 : S8x1024x4096.Slices ![0, 0, 0] S1x1024x4096
  shapeCasts_S1x1024x4096_S1024x4096 : S1x1024x4096.ShapeCasts S1024x4096
  transposes_S1024x4096_S4096x1024_1_0 : S1024x4096.Transposes [1, 0] S4096x1024
  bcast_S4096x1_S4096x1024_0_1 : S4096x1.BroadcastsInDim S4096x1024 (![0, 1] : Fin 2 → Fin S4096x1024.rank)
  slices_S8x4096x1024_S1x4096x1024_1_0_0 : S8x4096x1024.Slices ![1, 0, 0] S1x4096x1024
  slices_S8x1024x4096_S1x1024x4096_1_0_0 : S8x1024x4096.Slices ![1, 0, 0] S1x1024x4096
  slices_S8x4096x1024_S1x4096x1024_2_0_0 : S8x4096x1024.Slices ![2, 0, 0] S1x4096x1024
  slices_S8x1024x4096_S1x1024x4096_2_0_0 : S8x1024x4096.Slices ![2, 0, 0] S1x1024x4096
  slices_S8x4096x1024_S1x4096x1024_3_0_0 : S8x4096x1024.Slices ![3, 0, 0] S1x4096x1024
  slices_S8x1024x4096_S1x1024x4096_3_0_0 : S8x1024x4096.Slices ![3, 0, 0] S1x1024x4096
  slices_S8x4096x1024_S1x4096x1024_4_0_0 : S8x4096x1024.Slices ![4, 0, 0] S1x4096x1024
  slices_S8x1024x4096_S1x1024x4096_4_0_0 : S8x1024x4096.Slices ![4, 0, 0] S1x1024x4096
  slices_S8x4096x1024_S1x4096x1024_5_0_0 : S8x4096x1024.Slices ![5, 0, 0] S1x4096x1024
  slices_S8x1024x4096_S1x1024x4096_5_0_0 : S8x1024x4096.Slices ![5, 0, 0] S1x1024x4096
  slices_S8x4096x1024_S1x4096x1024_6_0_0 : S8x4096x1024.Slices ![6, 0, 0] S1x4096x1024
  slices_S8x1024x4096_S1x1024x4096_6_0_0 : S8x1024x4096.Slices ![6, 0, 0] S1x1024x4096
  slices_S8x4096x1024_S1x4096x1024_7_0_0 : S8x4096x1024.Slices ![7, 0, 0] S1x4096x1024
  slices_S8x1024x4096_S1x1024x4096_7_0_0 : S8x1024x4096.Slices ![7, 0, 0] S1x1024x4096
  shapeCasts_S4096x1024_S2x2048x1024 : S4096x1024.ShapeCasts S2x2048x1024
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KernelPieces.lean ====
/-
  What one run of the kernel body leaves in its accumulator and in the output block, as values.

  The body computes, from the point's input blocks, a partial down projection `P` (a 1024×1024 block) and a column
  `w` of routing weights, reads the accumulator `acc`, stores `acc + w·P` back into it, and copies the accumulator
  to the output block. At the first step of a token tile it first fills the accumulator with zeros. All loads and
  stores go through the whole buffers, so both buffers end at `acc + w·P` with `acc` the carried contents, or the
  zero block at the first step.
-/
import proofs.«164786_j4647154615097_1_alg».proof.Proof.Gen.KernelIdeal.Frame
import proofs.«164786_j4647154615097_1_alg».proof.Proof.LibWholeStores
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Idealize.ShloMosaic.WholeStores

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One step's update of the accumulator, from the point's six input blocks and the accumulator's contents. -/
abbrev step (i : grid0.Coords) (x0 : Vec F S1024x1024 .bf16) (x1 : Vec F S1024x2 .i32) (x2 : Vec F S1024x2 .f32) (x3 : Vec F S1x512x1024 .bf16) (x4 : Vec F S1x512x1024 .bf16) (x5 : Vec F S1x1024x512 .bf16) (acc : Vec F S1024x1024 .f32) : Vec F S1024x1024 .f32 :=
  k0_pay1 (k0_pay3 x0 x3 x4 x5) (k0_pay4 i x1 x2) acc

/-- Past the first step of a tile the accumulator ends at the update of what it held. -/
theorem scratch_B (c : Dev nD) (i : grid0.Coords) (arg3 : Memref sig .tc .vmem S1024x1024 .bf16) (harg3 : arg3.IsWhole) (arg4 : Memref sig .tc .vmem S1024x2 .i32) (harg4 : arg4.IsWhole) (arg5 : Memref sig .tc .vmem S1024x2 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (x0 : Vec F S1024x1024 .bf16) (x1 : Vec F S1024x2 .i32) (x2 : Vec F S1024x2 .f32) (x3 : Vec F S1x512x1024 .bf16) (x4 : Vec F S1x512x1024 .bf16) (x5 : Vec F S1x1024x512 .bf16) (xs0 : Vec F S1024x1024 .f32) :
    sout0_B_0 c i arg3 harg3 arg4 harg4 arg5 harg5 arg6 harg6 arg7 harg7 arg8 harg8 arg9 harg9 arg10 harg10 hc0 x0 x1 x2 x3 x4 x5 xs0 = step i x0 x1 x2 x3 x4 x5 xs0 := by
  unfold sout0_B_0
  rw [View.read_writes_eq_canon _ _ _ (scover0_B_0 c i arg3 harg3 arg4 harg4 arg5 harg5 arg6 harg6 arg7 harg7 arg8 harg8 arg9 harg9 arg10 harg10 hc0 x0 x1 x2 x3 x4 x5 xs0)]
  unfold kernelRun0_B
  dsimp only
  sl_unfold_words
  rw [View.canon_unit_zero hz2]
  simp only [readAt_whole_unread harg3 hz2, readAt_whole_unread harg4 hz2, readAt_whole_unread harg5 hz2,
    readAt_whole_unread harg6 hz3, readAt_whole_unread harg7 hz3, readAt_whole_unread harg8 hz3,
    readAt_whole_unread harg10 hz2]

/-- and the output block is a copy of it. -/
theorem out_B (c : Dev nD) (i : grid0.Coords) (arg3 : Memref sig .tc .vmem S1024x1024 .bf16) (harg3 : arg3.IsWhole) (arg4 : Memref sig .tc .vmem S1024x2 .i32) (harg4 : arg4.IsWhole) (arg5 : Memref sig .tc .vmem S1024x2 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (x0 : Vec F S1024x1024 .bf16) (x1 : Vec F S1024x2 .i32) (x2 : Vec F S1024x2 .f32) (x3 : Vec F S1x512x1024 .bf16) (x4 : Vec F S1x512x1024 .bf16) (x5 : Vec F S1x1024x512 .bf16) (xs0 : Vec F S1024x1024 .f32) :
    out0_B_6 c i arg3 harg3 arg4 harg4 arg5 harg5 arg6 harg6 arg7 harg7 arg8 harg8 arg9 harg9 arg10 harg10 hc0 x0 x1 x2 x3 x4 x5 xs0 = step i x0 x1 x2 x3 x4 x5 xs0 := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  sl_unfold_words
  rw [View.canon_unit_zero hz2, View.readCov_unit_zero _ hz2]
  simp only [readAt_whole_unread harg3 hz2, readAt_whole_unread harg4 hz2, readAt_whole_unread harg5 hz2,
    readAt_whole_unread harg6 hz3, readAt_whole_unread harg7 hz3, readAt_whole_unread harg8 hz3,
    readAt_whole_unread harg10 hz2]

/-- At the first step of a tile the accumulator ends at the update of the zero block. -/
theorem scratch_A (c : Dev nD) (i : grid0.Coords) (arg3 : Memref sig .tc .vmem S1024x1024 .bf16) (harg3 : arg3.IsWhole) (arg4 : Memref sig .tc .vmem S1024x2 .i32) (harg4 : arg4.IsWhole) (arg5 : Memref sig .tc .vmem S1024x2 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1024x1024 .f32) (harg9 : arg9.IsWhole) (arg10 : Memref sig .tc .vmem S1024x1024 .f32) (harg10 : arg10.IsWhole) (hc0 : cond0_0 i) (x0 : Vec F S1024x1024 .bf16) (x1 : Vec F S1024x2 .i32) (x2 : Vec F S1024x2 .f32) (x3 : Vec F S1x512x1024 .bf16) (x4 : Vec F S1x512x1024 .bf16) (x5 : Vec F S1x1024x512 .bf16) :
    sout0_A_0 c i arg3 harg3 arg4 harg4 arg5 harg5 arg6 harg6 arg7 harg7 arg8 harg8 arg9 harg9 arg10 harg10 hc0 x0 x1 x2 x3 x4 x5 = step i x0 x1 x2 x3 x4 x5 k0_pay2 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_cons_unit_zero hz2, View.readCov_unit_zero _ hz2]
  simp only [readAt_whole_unread harg3 hz2, readAt_whole_unread harg4 hz2, readAt_whole_unread harg5 hz2,
    readAt_whole_unread harg6 hz3, readAt_whole_unread harg7 hz3, readAt_whole_unread harg8 hz3]

/-- and the output block is a copy of it. -/
theorem out_A (c : Dev nD) (i : grid0.Coords) (arg3 : Memref sig .tc .vmem S1024x1024 .bf16) (harg3 : arg3.IsWhole) (arg4 : Memref sig .tc .vmem S1024x2 .i32) (harg4 : arg4.IsWhole) (arg5 : Memref sig .tc .vmem S1024x2 .f32) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1024x1024 .f32) (harg9 : arg9.IsWhole) (arg10 : Memref sig .tc .vmem S1024x1024 .f32) (harg10 : arg10.IsWhole) (hc0 : cond0_0 i) (x0 : Vec F S1024x1024 .bf16) (x1 : Vec F S1024x2 .i32) (x2 : Vec F S1024x2 .f32) (x3 : Vec F S1x512x1024 .bf16) (x4 : Vec F S1x512x1024 .bf16) (x5 : Vec F S1x1024x512 .bf16) :
    out0_A_6 c i arg3 harg3 arg4 harg4 arg5 harg5 arg6 harg6 arg7 harg7 arg8 harg8 arg9 harg9 arg10 harg10 hc0 x0 x1 x2 x3 x4 x5 = step i x0 x1 x2 x3 x4 x5 k0_pay2 := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2, readCov_whole_last _ hz2, View.readCov_unit_zero _ hz2]
  simp only [readAt_whole_unread harg3 hz2, readAt_whole_unread harg4 hz2, readAt_whole_unread harg5 hz2,
    readAt_whole_unread harg6 hz3, readAt_whole_unread harg7 hz3, readAt_whole_unread harg8 hz3]

end Cert.KernelIdeal.Pieces

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.KernelBody.lean ====
/-
  One step of the kernel body, read entry by entry on the extended reals.

  From the point's blocks — 1024 tokens of 1024 features `x0`, their expert words `x1` and routing weights `x2`
  (two slots each), one expert's stretch of 512 rows of the gate and up projections `x3`, `x4` and the matching
  512 columns of its down projection `x5` — the step adds to accumulator entry (r, h) the token's routing weight for
  the point's expert times  ∑ jj, (g·logistic g·u)(r, jj) · x5(h, jj),  with g and u the token's inner products with
  row jj of the gate and up stretches.
-/
import proofs.«164786_j4647154615097_1_alg».proof.Proof.KernelPieces
import proofs.«164786_j4647154615097_1_alg».proof.Proof.LibRowDot
import proofs.«164786_j4647154615097_1_alg».proof.Proof.LibKeepdims
import proofs.«164786_j4647154615097_1_alg».proof.Proof.LibUnitAxis
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Lib

/-- A token's inner product with row `jj` of a 512-row stretch. -/
def rowProj (x0 : Vec Ideal S1024x1024 .bf16) (w : Vec Ideal S1x512x1024 .bf16) (r : Fin 1024) (jj : Fin 512) : EReal :=
  ∑ d : Fin 1024, x0 (ix2 r d) * w (ix3 (0 : Fin 1) jj d)

/-- The stretch's contribution to the down projection at (r, h). -/
def stretch (x0 : Vec Ideal S1024x1024 .bf16) (x3 x4 : Vec Ideal S1x512x1024 .bf16) (x5 : Vec Ideal S1x1024x512 .bf16)
    (r h : Fin 1024) : EReal :=
  ∑ jj : Fin 512, rowProj x0 x3 r jj * Ideal.logistic (rowProj x0 x3 r jj) * rowProj x0 x4 r jj * x5 (ix3 (0 : Fin 1) h jj)

/-- Token `r`'s routing weight for the expert whose word is `e`. -/
def slotWeight (e : BitVec 32) (x1 : Vec Ideal S1024x2 .i32) (x2 : Vec Ideal S1024x2 .f32) (r : Fin 1024) : EReal :=
  ∑ k : Fin 2, if x1 (ix2 r k) = e then x2 (ix2 r k) else 0

/-- A select on the bit of a word equality is the `if` on the equality. -/
theorem select_cmpi_eq {α : Type} (a b : BitVec 32) (u v : α) :
    Scalar.select (IntOp.cmpi .eq a b) u v = if a = b then u else v := by
  unfold Scalar.select IntOp.cmpi
  by_cases h : a = b
  · subst h; simp
  · have hb : (a == b) = false := beq_eq_false_iff_ne.mpr h
    simp [hb, h]

/-- A matrix product of the token block with a 512-row stretch, at (r, jj). -/
theorem proj_apply (x0 : Vec Ideal S1024x1024 .bf16) (w : Vec Ideal S1x512x1024 .bf16) (r : Fin 1024) (jj : Fin 512) :
    matmul dot_S1024x1024_S512x1024_S1024x512_1_1_0_0_n_n none
        (shapeCast S1024x1024 x0 shapeCasts_S1024x1024_S1024x1024 : FVec Ideal S1024x1024 .bf16)
        (shapeCast S512x1024 w shapeCasts_S1x512x1024_S512x1024 : FVec Ideal S512x1024 .bf16)
        (constant (F := Ideal) S1024x512 .f32 0x00000000#32) (ix2 r jj)
      = rowProj x0 w r jj := by
  refine (RowDot.matmul_zero_apply dot_S1024x1024_S512x1024_S1024x512_1_1_0_0_n_n_wf none _ _ r jj).trans ?_
  unfold rowProj
  refine Finset.sum_congr rfl fun d _ => ?_
  rw [shapeCast_self, UnitAxis.drop_apply]

/-- The partial down projection the body computes, at (r, h). -/
theorem pay3_apply (x0 : Vec Ideal S1024x1024 .bf16) (x3 x4 : Vec Ideal S1x512x1024 .bf16) (x5 : Vec Ideal S1x1024x512 .bf16)
    (r h : Fin 1024) : k0_pay3 (F := Ideal) x0 x3 x4 x5 (ix2 r h) = stretch x0 x3 x4 x5 r h := by
  unfold k0_pay3
  refine (RowDot.matmul_zero_apply dot_S1024x512_S1024x512_S1024x1024_1_1_0_0_n_n_wf none _ _ r h).trans ?_
  unfold stretch
  refine Finset.sum_congr rfl fun jj _ => ?_
  rw [UnitAxis.drop_apply]
  show (matmul (F := Ideal) dot_S1024x1024_S512x1024_S1024x512_1_1_0_0_n_n none _ _ _ (ix2 r jj)
      * Ideal.logistic (matmul (F := Ideal) dot_S1024x1024_S512x1024_S1024x512_1_1_0_0_n_n none _ _ _ (ix2 r jj)))
      * matmul (F := Ideal) dot_S1024x1024_S512x1024_S1024x512_1_1_0_0_n_n none _ _ _ (ix2 r jj) * _ = _
  rw [proj_apply, proj_apply]

/-- The column of routing weights the body computes, at row r. -/
theorem pay4_apply (i : grid0.Coords) (x1 : Vec Ideal S1024x2 .i32) (x2 : Vec Ideal S1024x2 .f32) (r : Fin 1024) (u : Fin 1) :
    k0_pay4 (F := Ideal) i x1 x2 (ix2 r u) = slotWeight (BitVec.ofNat 32 (i 1).val) x1 x2 r := by
  unfold k0_pay4
  refine (Keepdims.col_apply _ _ r u).trans ?_
  refine (Ideal.multiReduction_add_single _ _ _ _ _ _).trans ?_
  unfold slotWeight
  refine Finset.sum_congr rfl fun k _ => ?_
  have hl : (reduces_S1024x2_S1024 : S1024x2.Reduces [1] S1024).lift (ix1 r) k = ix2 r k :=
    funext fun ax => Fin.ext (by match ax with | ⟨0, _⟩ => rfl | ⟨1, _⟩ => rfl)
  rw [hl]
  show Scalar.select (IntOp.cmpi .eq (shapeCast S1024x2 x1 _ (ix2 r k)) (BitVec.ofNat 32 (i 1).val))
      (shapeCast S1024x2 x2 _ (ix2 r k)) (Ideal.ofBits .f32 0x00000000#32) = _
  rw [shapeCast_self, shapeCast_self, select_cmpi_eq, Ideal.ofBits_zero_f32]

/-- One step at entry (r, h): the accumulator's entry plus the routing weight times the stretch's contribution. -/
theorem step_apply (i : grid0.Coords) (x0 : Vec Ideal S1024x1024 .bf16) (x1 : Vec Ideal S1024x2 .i32) (x2 : Vec Ideal S1024x2 .f32)
    (x3 x4 : Vec Ideal S1x512x1024 .bf16) (x5 : Vec Ideal S1x1024x512 .bf16) (acc : Vec Ideal S1024x1024 .f32) (r h : Fin 1024) :
    Pieces.step (F := Ideal) i x0 x1 x2 x3 x4 x5 acc (ix2 r h)
      = acc (ix2 r h) + slotWeight (BitVec.ofNat 32 (i 1).val) x1 x2 r * stretch x0 x3 x4 x5 r h := by
  unfold Pieces.step k0_pay1
  rw [shapeCast_self]
  show acc (ix2 r h) + broadcastTo S1024x1024 (k0_pay4 (F := Ideal) i x1 x2) broadcasts_S1024x1_S1024x1024 (ix2 r h)
      * k0_pay3 (F := Ideal) x0 x3 x4 x5 (ix2 r h) = _
  rw [Keepdims.bcastCol_apply, pay4_apply, pay3_apply]

/-- The zero block the first step of a tile starts from. -/
theorem pay2_apply (j : S1024x1024.Idx) : k0_pay2 (F := Ideal) j = 0 := by
  unfold k0_pay2
  rw [shapeCast_self]
  exact Ideal.ofBits_zero_f32

end Cert.KernelIdeal.Body

end
-- ==== Proof.KernelBlocks.lean ====
/-
  The blocks the kernel's windows stage at a grid point, as entries of the argument arrays.

  The grid has 256 points; point t works on token tile t / 64 (1024 tokens), expert (t / 8) % 8 and stretch t % 8
  (512 intermediate features). Before the region the host flattens the activations, the expert words and the routing
  weights to 4096 tokens and narrows the float arrays, which on the extended reals changes nothing. So the token block
  of point t holds rows 1024·(t/64) + r of the flattened activations (and of the words and weights), the gate and
  up blocks hold rows 512·(t%8) + jj of expert (t/8)%8, and the down block holds that expert's columns 512·(t%8) + jj.
-/
import proofs.«164786_j4647154615097_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The activations flattened to 4096 tokens. -/
def xf (c : Dev nD) : S4096x1024.Idx → EReal :=
  shapeCast S4096x1024 (m ((c : Thread nD τ).loc main_arg0)) shapeCasts_S2x2048x1024_S4096x1024
/-- The expert words flattened to 4096 tokens. -/
def eif (c : Dev nD) : S4096x2.Idx → BitVec 32 :=
  shapeCast S4096x2 (m ((c : Thread nD τ).loc main_arg1)) shapeCasts_S2x2048x2_S4096x2
/-- The routing weights flattened to 4096 tokens. -/
def ewf (c : Dev nD) : S4096x2.Idx → EReal :=
  shapeCast S4096x2 (m ((c : Thread nD τ).loc main_arg2)) shapeCasts_S2x2048x2_S4096x2

/-! ## The arrays the region finds -/

theorem V1 (c : Dev nD) : (V m c main_v1 : S4096x1024.Idx → EReal) = xf m c := by
  show StableHlo.after hostOps0 (fun b => m (c, b)) (Proc.devRef .tc main_v1) = _
  after_results
  rfl
theorem V2 (c : Dev nD) : (V m c main_v2 : S4096x2.Idx → BitVec 32) = eif m c := by
  show StableHlo.after hostOps0 (fun b => m (c, b)) (Proc.devRef .tc main_v2) = _
  after_results
  rfl
theorem V3 (c : Dev nD) : (V m c main_v3 : S4096x2.Idx → EReal) = ewf m c := by
  show StableHlo.after hostOps0 (fun b => m (c, b)) (Proc.devRef .tc main_v3) = _
  after_results
  rfl
theorem V4 (c : Dev nD) : (V m c main_v4 : S8x4096x1024.Idx → EReal) = m ((c : Thread nD τ).loc main_arg3) := by
  show StableHlo.after hostOps0 (fun b => m (c, b)) (Proc.devRef .tc main_v4) = _
  after_results
  rfl
theorem V5 (c : Dev nD) : (V m c main_v5 : S8x4096x1024.Idx → EReal) = m ((c : Thread nD τ).loc main_arg4) := by
  show StableHlo.after hostOps0 (fun b => m (c, b)) (Proc.devRef .tc main_v5) = _
  after_results
  rfl
theorem V6 (c : Dev nD) : (V m c main_v6 : S8x1024x4096.Idx → EReal) = m ((c : Thread nD τ).loc main_arg5) := by
  show StableHlo.after hostOps0 (fun b => m (c, b)) (Proc.devRef .tc main_v6) = _
  after_results
  rfl

/-! ## The index maps, decided once over the grid -/

theorem idx_tok0 : ∀ t : Fin cfg0.N, win0_0.index t 0 = t.val / 64 ∧ win0_0.index t 1 = 0 :=
  (by decide +kernel : ∀ t : Fin grid0.N, win0_0.index t 0 = t.val / 64 ∧ win0_0.index t 1 = 0)
theorem idx_tok1 : ∀ t : Fin cfg0.N, win0_1.index t 0 = t.val / 64 ∧ win0_1.index t 1 = 0 :=
  (by decide +kernel : ∀ t : Fin grid0.N, win0_1.index t 0 = t.val / 64 ∧ win0_1.index t 1 = 0)
theorem idx_tok2 : ∀ t : Fin cfg0.N, win0_2.index t 0 = t.val / 64 ∧ win0_2.index t 1 = 0 :=
  (by decide +kernel : ∀ t : Fin grid0.N, win0_2.index t 0 = t.val / 64 ∧ win0_2.index t 1 = 0)
theorem idx_gate : ∀ t : Fin cfg0.N, win0_3.index t 0 = t.val / 8 % 8 ∧ win0_3.index t 1 = t.val % 8 ∧ win0_3.index t 2 = 0 :=
  (by decide +kernel : ∀ t : Fin grid0.N, win0_3.index t 0 = t.val / 8 % 8 ∧ win0_3.index t 1 = t.val % 8 ∧ win0_3.index t 2 = 0)
theorem idx_up : ∀ t : Fin cfg0.N, win0_4.index t 0 = t.val / 8 % 8 ∧ win0_4.index t 1 = t.val % 8 ∧ win0_4.index t 2 = 0 :=
  (by decide +kernel : ∀ t : Fin grid0.N, win0_4.index t 0 = t.val / 8 % 8 ∧ win0_4.index t 1 = t.val % 8 ∧ win0_4.index t 2 = 0)
theorem idx_down : ∀ t : Fin cfg0.N, win0_5.index t 0 = t.val / 8 % 8 ∧ win0_5.index t 1 = 0 ∧ win0_5.index t 2 = t.val % 8 :=
  (by decide +kernel : ∀ t : Fin grid0.N, win0_5.index t 0 = t.val / 8 % 8 ∧ win0_5.index t 1 = 0 ∧ win0_5.index t 2 = t.val % 8)
theorem idx_out : ∀ t : Fin cfg0.N, win0_6.index t 0 = t.val / 64 ∧ win0_6.index t 1 = 0 :=
  (by decide +kernel : ∀ t : Fin grid0.N, win0_6.index t 0 = t.val / 64 ∧ win0_6.index t 1 = 0)
/-- The expert coordinate of a point. -/
theorem coord_expert : ∀ t : Fin cfg0.N, ((grid0.coords t) 1).val = t.val / 8 % 8 :=
  (by decide +kernel : ∀ t : Fin grid0.N, ((grid0.coords t) 1).val = t.val / 8 % 8)

/-! ## The blocks -/

theorem tok_apply (c : Dev nD) (t : Fin cfg0.N) (r d : Fin 1024) (T : Fin 4096) (hT : T.val = 1024 * (t.val / 64) + r.val) :
    (iblk m c 0 t : Vec Ideal S1024x1024 .bf16) (ix2 r d) = xf m c (ix2 T d) := by
  have hi := idx_tok0 t
  unfold iblk
  rw [View.read_apply]
  show (V m c main_v1 : S4096x1024.Idx → EReal) _ = _
  rw [V1]
  congr 1
  funext a
  apply Fin.ext
  match a with
  | ⟨0, _⟩ => show win0_0.index t 0 * 1024 + 1 * r.val = T.val; rw [hi.1, hT]; omega
  | ⟨1, _⟩ => show win0_0.index t 1 * 1024 + 1 * d.val = d.val; rw [hi.2]; omega

theorem word_apply (c : Dev nD) (t : Fin cfg0.N) (r : Fin 1024) (k : Fin 2) (T : Fin 4096) (hT : T.val = 1024 * (t.val / 64) + r.val) :
    (iblk m c 1 t : Vec Ideal S1024x2 .i32) (ix2 r k) = eif m c (ix2 T k) := by
  have hi := idx_tok1 t
  unfold iblk
  rw [View.read_apply]
  show (V m c main_v2 : S4096x2.Idx → BitVec 32) _ = _
  rw [V2]
  congr 1
  funext a
  apply Fin.ext
  match a with
  | ⟨0, _⟩ => show win0_1.index t 0 * 1024 + 1 * r.val = T.val; rw [hi.1, hT]; omega
  | ⟨1, _⟩ => show win0_1.index t 1 * 2 + 1 * k.val = k.val; rw [hi.2]; omega

theorem wt_apply (c : Dev nD) (t : Fin cfg0.N) (r : Fin 1024) (k : Fin 2) (T : Fin 4096) (hT : T.val = 1024 * (t.val / 64) + r.val) :
    (iblk m c 2 t : Vec Ideal S1024x2 .f32) (ix2 r k) = ewf m c (ix2 T k) := by
  have hi := idx_tok2 t
  unfold iblk
  rw [View.read_apply]
  show (V m c main_v3 : S4096x2.Idx → EReal) _ = _
  rw [V3]
  congr 1
  funext a
  apply Fin.ext
  match a with
  | ⟨0, _⟩ => show win0_2.index t 0 * 1024 + 1 * r.val = T.val; rw [hi.1, hT]; omega
  | ⟨1, _⟩ => show win0_2.index t 1 * 2 + 1 * k.val = k.val; rw [hi.2]; omega

theorem gate_apply (c : Dev nD) (t : Fin cfg0.N) (jj : Fin 512) (d : Fin 1024) (e : Fin 8) (j : Fin 4096)
    (he : e.val = t.val / 8 % 8) (hj : j.val = 512 * (t.val % 8) + jj.val) :
    (iblk m c 3 t : Vec Ideal S1x512x1024 .bf16) (ix3 (0 : Fin 1) jj d) = m ((c : Thread nD τ).loc main_arg3) (ix3 e j d) := by
  have hi := idx_gate t
  unfold iblk
  rw [View.read_apply]
  show (V m c main_v4 : S8x4096x1024.Idx → EReal) _ = _
  rw [V4]
  congr 1
  funext a
  apply Fin.ext
  match a with
  | ⟨0, _⟩ => show win0_3.index t 0 * 1 + 1 * 0 = e.val; rw [hi.1, he]; omega
  | ⟨1, _⟩ => show win0_3.index t 1 * 512 + 1 * jj.val = j.val; rw [hi.2.1, hj]; omega
  | ⟨2, _⟩ => show win0_3.index t 2 * 1024 + 1 * d.val = d.val; rw [hi.2.2]; omega

theorem up_apply (c : Dev nD) (t : Fin cfg0.N) (jj : Fin 512) (d : Fin 1024) (e : Fin 8) (j : Fin 4096)
    (he : e.val = t.val / 8 % 8) (hj : j.val = 512 * (t.val % 8) + jj.val) :
    (iblk m c 4 t : Vec Ideal S1x512x1024 .bf16) (ix3 (0 : Fin 1) jj d) = m ((c : Thread nD τ).loc main_arg4) (ix3 e j d) := by
  have hi := idx_up t
  unfold iblk
  rw [View.read_apply]
  show (V m c main_v5 : S8x4096x1024.Idx → EReal) _ = _
  rw [V5]
  congr 1
  funext a
  apply Fin.ext
  match a with
  | ⟨0, _⟩ => show win0_4.index t 0 * 1 + 1 * 0 = e.val; rw [hi.1, he]; omega
  | ⟨1, _⟩ => show win0_4.index t 1 * 512 + 1 * jj.val = j.val; rw [hi.2.1, hj]; omega
  | ⟨2, _⟩ => show win0_4.index t 2 * 1024 + 1 * d.val = d.val; rw [hi.2.2]; omega

theorem down_apply (c : Dev nD) (t : Fin cfg0.N) (h : Fin 1024) (jj : Fin 512) (e : Fin 8) (j : Fin 4096)
    (he : e.val = t.val / 8 % 8) (hj : j.val = 512 * (t.val % 8) + jj.val) :
    (iblk m c 5 t : Vec Ideal S1x1024x512 .bf16) (ix3 (0 : Fin 1) h jj) = m ((c : Thread nD τ).loc main_arg5) (ix3 e h j) := by
  have hi := idx_down t
  unfold iblk
  rw [View.read_apply]
  show (V m c main_v6 : S8x1024x4096.Idx → EReal) _ = _
  rw [V6]
  congr 1
  funext a
  apply Fin.ext
  match a with
  | ⟨0, _⟩ => show win0_5.index t 0 * 1 + 1 * 0 = e.val; rw [hi.1, he]; omega
  | ⟨1, _⟩ => show win0_5.index t 1 * 1024 + 1 * h.val = h.val; rw [hi.2.1]; omega
  | ⟨2, _⟩ => show win0_5.index t 2 * 512 + 1 * jj.val = j.val; rw [hi.2.2, hj]; omega

end Cert.KernelIdeal.Blocks

end
-- ==== Proof.Spec.lean ====
/-
  A dense mixture-of-experts layer, token by token, on the extended reals.

  For token `T` (a row of the flattened activations `x`, 4096 rows of 1024 features), expert `e` of 8 and
  intermediate feature `j` of 4096:
    gate e T j  = ∑ d, x(T,d) · gp(e,j,d)        up e T j = ∑ d, x(T,d) · up(e,j,d)
    inter e T j = (gate · logistic gate) · up     -- SiLU of the gate projection times the up projection
  and the routing weight of expert `e` for token `T` is the sum, over the token's two routing slots, of the slot's
  weight where the slot names `e` and of zero elsewhere. The layer's output at (T, h) adds, expert after expert,
  weight e T · ∑ j, inter e T j · dp(e,h,j).

  Two arrangements of that sum are stated here. `racc` adds one whole down projection per expert (8 terms).
  `kacc` cuts each down projection into 8 stretches of 512 intermediate features and adds the 64 weighted
  stretches one at a time, expert-major. They are equal when every entry is a real number (module MoeLaw).
-/
import Idealize.ShloMosaic.PureOps.Ideal
import Idealize.ShloMosaic.Lib.ValueIdx

noncomputable section

open scoped BigOperators

namespace Cert.Moe

open Idealize.ShloMosaic Idealize.ShloMosaic.ValueIdx

/-- The flattened activations and the result: 4096 tokens of 1024 features. -/
abbrev STok : Shape := ⟨2, ![4096, 1024]⟩
/-- The routing slots: two per token. -/
abbrev SSlot : Shape := ⟨2, ![4096, 2]⟩
/-- The gate and up projections: 8 experts, 4096 intermediate features, 1024 features. -/
abbrev SUp : Shape := ⟨3, ![8, 4096, 1024]⟩
/-- The down projections: 8 experts, 1024 features, 4096 intermediate features. -/
abbrev SDown : Shape := ⟨3, ![8, 1024, 4096]⟩

variable (x : STok.Idx → EReal) (ei : SSlot.Idx → BitVec 32) (ew : SSlot.Idx → EReal)
  (gp up : SUp.Idx → EReal) (dp : SDown.Idx → EReal)

/-- The routing weight of expert `e` for token `T`: zero plus, over the two slots, the slot's weight where the
    slot's expert word is `e`. -/
def weight (e : Fin 8) (T : Fin 4096) : EReal :=
  0 + ∑ k : Fin 2, if ei (ix2 T k) = BitVec.ofNat 32 e.val then ew (ix2 T k) else 0

/-- A projection of token `T` onto intermediate feature `j` of expert `e`: a row of `x` against a row of `w`. -/
def proj (w : SUp.Idx → EReal) (e : Fin 8) (T : Fin 4096) (j : Fin 4096) : EReal :=
  ∑ d : Fin 1024, x (ix2 T d) * w (ix3 e j d)

/-- SiLU of the gate projection times the up projection. -/
def inter (e : Fin 8) (T : Fin 4096) (j : Fin 4096) : EReal :=
  proj x gp e T j * Ideal.logistic (proj x gp e T j) * proj x up e T j

/-- Intermediate feature `jj` of stretch `ic`: feature 512·ic + jj. -/
def col (ic : Fin 8) (jj : Fin 512) : Fin 4096 := ⟨512 * ic.val + jj.val, by omega⟩

/-- One stretch of 512 intermediate features of expert `e`'s down projection, at (T, h). -/
def partDown (e ic : Fin 8) (T : Fin 4096) (h : Fin 1024) : EReal :=
  ∑ jj : Fin 512, inter x gp up e T (col ic jj) * dp (ix3 e h (col ic jj))

/-- Expert `e`'s whole down projection at (T, h). -/
def fullDown (e : Fin 8) (T : Fin 4096) (h : Fin 1024) : EReal :=
  ∑ j : Fin 4096, inter x gp up e T j * dp (ix3 e h j)

/-- The weighted stretch added at step `s` of 64: expert s / 8, stretch s % 8. -/
def kterm (T : Fin 4096) (h : Fin 1024) (s : ℕ) (hs : s < 64) : EReal :=
  weight ei ew ⟨s / 8, by omega⟩ T * partDown x gp up dp ⟨s / 8, by omega⟩ ⟨s % 8, by omega⟩ T h

/-- The stretch-by-stretch accumulation after step `s`: from zero, one weighted stretch at a time. -/
def kacc (T : Fin 4096) (h : Fin 1024) : (s : ℕ) → s < 64 → EReal
  | 0, hs => 0 + kterm x ei ew gp up dp T h 0 hs
  | s + 1, hs => kacc T h s (Nat.lt_of_succ_lt hs) + kterm x ei ew gp up dp T h (s + 1) hs

/-- The expert-by-expert accumulation after expert `e`: from zero, one weighted whole projection at a time. -/
def racc (T : Fin 4096) (h : Fin 1024) : (e : ℕ) → e < 8 → EReal
  | 0, he => 0 + weight ei ew ⟨0, he⟩ T * fullDown x gp up dp ⟨0, he⟩ T h
  | e + 1, he => racc T h e (Nat.lt_of_succ_lt he) + weight ei ew ⟨e + 1, he⟩ T * fullDown x gp up dp ⟨e + 1, he⟩ T h

end Cert.Moe

end
-- ==== Proof.KernelAccum.lean ====
/-
  The accumulator point by point.

  Within a token tile the 64 points run expert-major over (expert, stretch); the accumulator is reset at the tile's
  first point and the output block is a copy of it after every point. So after point n both hold, at entry (r, h),
  the stretch-by-stretch accumulation `kacc` of token 1024·(n/64) + r after step n % 64: by induction on the point,
  each step adding the token's routing weight for the point's expert times the point's stretch of the down
  projection.
-/
import proofs.«164786_j4647154615097_1_alg».proof.Proof.KernelBody
import proofs.«164786_j4647154615097_1_alg».proof.Proof.KernelBlocks
import proofs.«164786_j4647154615097_1_alg».proof.Proof.Spec

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Moe Cert.KernelIdeal.Blocks Cert.KernelIdeal.Body

variable (m : (ℓ : Loc nD τ sig) → Buf (Elt Ideal) ℓ) (c : Dev nD)

/-- The three weight arrays as the layer's projections. -/
abbrev gpA : SUp.Idx → EReal := m ((c : Thread nD τ).loc main_arg3)
abbrev upA : SUp.Idx → EReal := m ((c : Thread nD τ).loc main_arg4)
abbrev dpA : SDown.Idx → EReal := m ((c : Thread nD τ).loc main_arg5)

/-- The routing weight the body computes at a point is the token's weight for the point's expert. -/
theorem weight_point (t : Fin cfg0.N) (r : Fin 1024) (T : Fin 4096) (hT : T.val = 1024 * (t.val / 64) + r.val)
    (e : Fin 8) (he : e.val = t.val / 8 % 8) :
    0 + slotWeight (BitVec.ofNat 32 ((grid0.coords t) 1).val) (iblk m c 1 t : Vec Ideal S1024x2 .i32)
        (iblk m c 2 t : Vec Ideal S1024x2 .f32) r = weight (eif m c) (ewf m c) e T := by
  unfold slotWeight weight
  rw [coord_expert t, ← he]
  congr 1
  refine Finset.sum_congr rfl fun k _ => ?_
  rw [word_apply m c t r k T hT, wt_apply m c t r k T hT]

/-- A token's inner product with a row of the point's gate stretch is its gate projection. -/
theorem gate_point (t : Fin cfg0.N) (r : Fin 1024) (jj : Fin 512) (T : Fin 4096) (hT : T.val = 1024 * (t.val / 64) + r.val)
    (e ic : Fin 8) (he : e.val = t.val / 8 % 8) (hic : ic.val = t.val % 8) :
    rowProj (iblk m c 0 t : Vec Ideal S1024x1024 .bf16) (iblk m c 3 t : Vec Ideal S1x512x1024 .bf16) r jj
      = proj (xf m c) (gpA m c) e T (col ic jj) := by
  unfold rowProj proj
  refine Finset.sum_congr rfl fun d _ => ?_
  rw [tok_apply m c t r d T hT, gate_apply m c t jj d e (col ic jj) he (by show 512 * ic.val + jj.val = _; rw [hic])]

/-- The same for the up stretch. -/
theorem up_point (t : Fin cfg0.N) (r : Fin 1024) (jj : Fin 512) (T : Fin 4096) (hT : T.val = 1024 * (t.val / 64) + r.val)
    (e ic : Fin 8) (he : e.val = t.val / 8 % 8) (hic : ic.val = t.val % 8) :
    rowProj (iblk m c 0 t : Vec Ideal S1024x1024 .bf16) (iblk m c 4 t : Vec Ideal S1x512x1024 .bf16) r jj
      = proj (xf m c) (upA m c) e T (col ic jj) := by
  unfold rowProj proj
  refine Finset.sum_congr rfl fun d _ => ?_
  rw [tok_apply m c t r d T hT, up_apply m c t jj d e (col ic jj) he (by show 512 * ic.val + jj.val = _; rw [hic])]

/-- The point's stretch of the down projection. -/
theorem stretch_point (t : Fin cfg0.N) (r h : Fin 1024) (T : Fin 4096) (hT : T.val = 1024 * (t.val / 64) + r.val)
    (e ic : Fin 8) (he : e.val = t.val / 8 % 8) (hic : ic.val = t.val % 8) :
    stretch (iblk m c 0 t : Vec Ideal S1024x1024 .bf16) (iblk m c 3 t : Vec Ideal S1x512x1024 .bf16)
        (iblk m c 4 t : Vec Ideal S1x512x1024 .bf16) (iblk m c 5 t : Vec Ideal S1x1024x512 .bf16) r h
      = partDown (xf m c) (gpA m c) (upA m c) (dpA m c) e ic T h := by
  unfold stretch partDown inter
  refine Finset.sum_congr rfl fun jj _ => ?_
  rw [gate_point m c t r jj T hT e ic he hic, up_point m c t r jj T hT e ic he hic,
    down_apply m c t h jj e (col ic jj) he (by show 512 * ic.val + jj.val = _; rw [hic])]

/-- One point's update of an accumulator entry: the weighted stretch of step t % 64 is added. -/
theorem point_step (t : Fin cfg0.N) (acc : Vec Ideal S1024x1024 .f32) (r h : Fin 1024) (T : Fin 4096)
    (hT : T.val = 1024 * (t.val / 64) + r.val) (s : ℕ) (hs : s < 64) (hst : s = t.val % 64) :
    Pieces.step (F := Ideal) (grid0.coords t) (iblk m c 0 t) (iblk m c 1 t) (iblk m c 2 t) (iblk m c 3 t) (iblk m c 4 t)
        (iblk m c 5 t) acc (ix2 r h)
      = acc (ix2 r h) + kterm (xf m c) (eif m c) (ewf m c) (gpA m c) (upA m c) (dpA m c) T h s hs := by
  have he : (⟨s / 8, by omega⟩ : Fin 8).val = t.val / 8 % 8 := by show s / 8 = _; omega
  have hic : (⟨s % 8, by omega⟩ : Fin 8).val = t.val % 8 := by show s % 8 = _; omega
  rw [step_apply]
  unfold kterm
  rw [← weight_point m c t r T hT ⟨s / 8, by omega⟩ he,
    ← stretch_point m c t r h T hT ⟨s / 8, by omega⟩ ⟨s % 8, by omega⟩ he hic, zero_add]

/-- After point n the output block and the accumulator hold the accumulation after step n % 64. -/
theorem outs_apply : ∀ (n : ℕ) (hn : n < cfg0.N) (r h : Fin 1024) (T : Fin 4096) (hT : T.val = 1024 * (n / 64) + r.val)
    (s : ℕ) (hs : s < 64) (hsn : s = n % 64),
    (outsAt0 m c n hn).1 (ix2 r h) = kacc (xf m c) (eif m c) (ewf m c) (gpA m c) (upA m c) (dpA m c) T h s hs
    ∧ (outsAt0 m c n hn).2 (ix2 r h) = kacc (xf m c) (eif m c) (ewf m c) (gpA m c) (upA m c) (dpA m c) T h s hs := by
  intro n
  induction n with
  | zero =>
    intro hn r h T hT s hs hsn
    obtain rfl : s = 0 := hsn
    rw [outsAt0_A m c ⟨0, hn⟩ rfl]
    dsimp only
    rw [Pieces.out_A, Pieces.scratch_A, point_step m c ⟨0, hn⟩ _ r h T hT 0 hs rfl, pay2_apply]
    exact ⟨rfl, rfl⟩
  | succ n ih =>
    intro hn r h T hT s hs hsn
    by_cases h0 : (n + 1) % 64 = 0
    · obtain rfl : s = 0 := hsn.trans h0
      rw [outsAt0_A m c ⟨n + 1, hn⟩ h0]
      dsimp only
      rw [Pieces.out_A, Pieces.scratch_A, point_step m c ⟨n + 1, hn⟩ _ r h T hT 0 hs h0.symm, pay2_apply]
      exact ⟨rfl, rfl⟩
    · rw [outsAt0_B m c ⟨n + 1, hn⟩ h0]
      dsimp only
      obtain ⟨s', rfl⟩ : ∃ s', s = s' + 1 := ⟨s - 1, by omega⟩
      have hprev := (ih (Nat.lt_of_succ_lt hn) r h T (by rw [hT]; congr 2; omega) s' (by omega) (by omega)).2
      rw [Pieces.out_B, Pieces.scratch_B, point_step m c ⟨n + 1, hn⟩ _ r h T hT (s' + 1) hs hsn]
      have hp : (outsAt0 m c (n + 1 - 1) (Nat.lt_of_le_of_lt (Nat.sub_le _ _) hn)).2 (ix2 r h)
          = kacc (xf m c) (eif m c) (ewf m c) (gpA m c) (upA m c) (dpA m c) T h s' (by omega) := hprev
      rw [hp]
      exact ⟨rfl, rfl⟩

end Cert.KernelIdeal.Accum

end
-- ==== Proof.KernelValue.lean ====
/-
  The kernel's result array.

  The output window's block index moves with the token tile only, so a block is written back after the last of a
  tile's 64 points (points 63, 127, 191, 255), holding the accumulation after step 63 for its 1024 tokens. The four
  blocks tile the 4096 rows, so the flat result holds `kacc … 63` at every (token, feature); the host then views it
  as [2, 2048, 1024].
-/
import proofs.«164786_j4647154615097_1_alg».proof.Proof.KernelAccum
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Moe Cert.KernelIdeal.Blocks Cert.KernelIdeal.Accum

variable (m : (ℓ : Loc nD τ sig) → Buf (Elt Ideal) ℓ) (ρ : Dev nD → PrngReg)

/-- The flat result: at (token, feature) the stretch-by-stretch accumulation after its last step. -/
def flatOut (c : Dev nD) : S4096x1024.Idx → EReal := fun i =>
  kacc (xf m c) (eif m c) (ewf m c) (gpA m c) (upA m c) (dpA m c) ⟨(i 0).val, idx2_lt0 i⟩ ⟨(i 1).val, idx2_lt1 i⟩ 63 (by norm_num)

/-- What a flushing point writes back is its block of the flat result. -/
theorem flushed_eq (c : Dev nD) (t : Fin cfg0.N) (hf : (cfg0.win 6).flush t = true) :
    (dats m 0 c).flushed 6 t = ((cfg0.win 6).blk t).view.read (Elt Ideal) (flatOut m c) := by
  have h63 : t.val % 64 = 63 := (flush0_6 t).mp hf
  have hi := idx_out t
  have hN : t.val < 256 := lt_of_lt_of_eq t.isLt (show cfg0.N = 256 from N_0)
  show (cfg0.win 6).cut (grid0.coords t) ((dats m 0 c).after 6 t) = _
  rw [after0_6]
  funext y
  rw [View.read_apply]
  obtain ⟨r, h, rfl⟩ : ∃ (r : Fin 1024) (h : Fin 1024), y = ix2 r h := ⟨y 0, y 1, eq_ix2 y⟩
  show (outsAt0 m c t.val t.isLt).1 (ix2 r h) = flatOut m c _
  rw [(outs_apply m c t.val t.isLt r h ⟨1024 * (t.val / 64) + r.val, by omega⟩ rfl 63 (by norm_num) h63.symm).1]
  unfold flatOut
  congr 1
  · apply Fin.ext
    show 1024 * (t.val / 64) + r.val = win0_6.index t 0 * 1024 + 1 * r.val
    rw [hi.1]; omega
  · apply Fin.ext
    show h.val = win0_6.index t 1 * 1024 + 1 * h.val
    rw [hi.2]; omega

/-- An index of the flat result is in point t's block iff each coordinate is in the block's range. -/
theorem mem_blk (t : Fin cfg0.N) (i : S4096x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v7).slice (win0_6.rect t)).set ↔ _
  rw [View.set_slice_whole, Rect.mem_set_unit]
  exact Iff.rfl

/-- Every index of the flat result is in the block written back after its token tile's last point. -/
theorem cover (i : S4096x1024.Idx) :
    ∃ t : Fin cfg0.N, (cfg0.win 6).flush t = true ∧ i ∈ ((cfg0.win 6).blk t).view.set := by
  have h0 : (i 0).val < 4096 := idx2_lt0 i
  have h1 : (i 1).val < 1024 := idx2_lt1 i
  have hN : cfg0.N = 256 := N_0
  refine ⟨⟨64 * ((i 0).val / 1024) + 63, by omega⟩, (flush0_6 _).mpr (by show (64 * ((i 0).val / 1024) + 63) % 64 = 63; omega), ?_⟩
  rw [mem_blk]
  have hi := idx_out ⟨64 * ((i 0).val / 1024) + 63, by omega⟩
  intro a
  match a with
  | ⟨0, _⟩ =>
    show win0_6.index _ 0 * 1024 ≤ (i 0).val ∧ (i 0).val < win0_6.index _ 0 * 1024 + 1024
    rw [hi.1]
    show (64 * ((i 0).val / 1024) + 63) / 64 * 1024 ≤ (i 0).val ∧ (i 0).val < (64 * ((i 0).val / 1024) + 63) / 64 * 1024 + 1024
    omega
  | ⟨1, _⟩ =>
    show win0_6.index _ 1 * 1024 ≤ (i 1).val ∧ (i 1).val < win0_6.index _ 1 * 1024 + 1024
    rw [hi.2]
    omega

/-- The region's result array after the run. -/
theorem final (c : Dev nD) : (dats m 0 c).arrAt 6 cfg0.N = flatOut m c :=
  (dats m 0 c).arrAt_eq_of_cover 6 (flatOut m c) (flushed_eq m c) (cover)

/-- The host's last line views the flat result as [2, 2048, 1024]. -/
theorem tail_eq (c : Dev nD) :
    Pipeline.afterTail₀ cfgs (dats m) 0 (V0 m) [hostOps1] c main_v8
      = shapeCast S2x2048x1024 (flatOut m c) shapeCasts_S4096x1024_S2x2048x1024 := by
  unfold Pipeline.afterTail₀
  show StableHlo.after hostOps1 _ (Proc.devRef .tc main_v8) = _
  after_results
  exact congrArg (fun v => shapeCast S2x2048x1024 v shapeCasts_S4096x1024_S2x2048x1024)
    ((Pipeline.withArrays_arr spec0 launch0.win.arr_inj c _ _ 6).trans (final m c))

/-- The run, read: the result at the viewed flat result, the arguments unchanged. -/
theorem run : θ_run defs (onTc (τ := τ) (main (F := Ideal))) ⟨m, fun _ => 0, ρ⟩ fun r => ∀ c : Dev nD,
      r.2.mem ((c.tc : Thread nD τ).loc main_v8) = shapeCast S2x2048x1024 (flatOut m c) shapeCasts_S4096x1024_S2x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.RefRun.lean ====
/-
  The reference's @main as a list of host operations, and its run: every weakly fair execution ends with the
  result buffer at the operations' composed term of the argument arrays, the arguments unchanged.
-/
import proofs.«164786_j4647154615097_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- @main's 286 host operations, in order; the operations of `_where` and `silu` stand inline at each call. -/
abbrev ops : List (HloOp τ sig (Elt F)) :=
  [ reshape main_arg0 main_v0 rfl shapeCasts_S2x2048x1024_S4096x1024,
    reshape main_arg1 main_v1 rfl shapeCasts_S2x2048x2_S4096x2,
    reshape main_arg2 main_v2 rfl shapeCasts_S2x2048x2_S4096x2,
    nullary main_cst (constant S_ .f32 0x00000000#32),
    unary main_cst main_v3 (broadcastInDim S4096x1024 ![] bcast_S_S4096x1024 : (⟨S_, .f32⟩ : BufTy).Contents (Elt F) → (⟨S4096x1024, .f32⟩ : BufTy).Contents (Elt F)),
    nullary main_c (constantI S_ 32 0#32),
    unary main_c main_v4 (broadcastInDim S4096x2 ![] bcast_S_S4096x2 : (⟨S_, .i32⟩ : BufTy).Contents (Elt F) → (⟨S4096x2, .i32⟩ : BufTy).Contents (Elt F)),
    binary main_v1 main_v4 main_v5 (cmpi .eq : (⟨S4096x2, .i32⟩ : BufTy).Contents (Elt F) → (⟨S4096x2, .i32⟩ : BufTy).Contents (Elt F) → (⟨S4096x2, .i1⟩ : BufTy).Contents (Elt F)),
    nullary main_cst_0 (constant S_ .f32 0x00000000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4096x2, .f32⟩) main_call0_v1) (broadcastInDim S4096x2 ![] bcast_S_S4096x2),
    TRef.ternary (TRef.of (T := ⟨S4096x2, .i1⟩) main_v5) (TRef.of (T := ⟨S4096x2, .f32⟩) main_v2) (TRef.of (T := ⟨S4096x2, .f32⟩) main_call0_v1) (TRef.of (T := ⟨S4096x2, .f32⟩) main_v6) select,
    nullary main_cst_1 (constant S_ .f32 0x00000000#32),
    binary main_v6 main_cst_1 main_v7 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v8 ((extractStridedSlice S1x4096x1024 ![0, 0, 0] · slices_S8x4096x1024_S1x4096x1024_0_0_0) : (⟨S8x4096x1024, .f32⟩ : BufTy).Contents (Elt F) → (⟨S1x4096x1024, .f32⟩ : BufTy).Contents (Elt F)),
    reshape main_v8 main_v9 rfl shapeCasts_S1x4096x1024_S4096x1024,
    unary main_v9 main_v10 ((transpose S1024x4096 [1, 0] · transposes_S4096x1024_S1024x4096_1_0) : (⟨S4096x1024, .f32⟩ : BufTy).Contents (Elt F) → (⟨S1024x4096, .f32⟩ : BufTy).Contents (Elt F)),
    binary main_v0 main_v10 main_v11 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v12 ((extractStridedSlice S1x4096x1024 ![0, 0, 0] · slices_S8x4096x1024_S1x4096x1024_0_0_0) : (⟨S8x4096x1024, .f32⟩ : BufTy).Contents (Elt F) → (⟨S1x4096x1024, .f32⟩ : BufTy).Contents (Elt F)),
    reshape main_v12 main_v13 rfl shapeCasts_S1x4096x1024_S4096x1024,
    unary main_v13 main_v14 ((transpose S1024x4096 [1, 0] · transposes_S4096x1024_S1024x4096_1_0) : (⟨S4096x1024, .f32⟩ : BufTy).Contents (Elt F) → (⟨S1024x4096, .f32⟩ : BufTy).Contents (Elt F)),
    binary main_v0 main_v14 main_v15 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v11) (TRef.of (T := ⟨S4096x4096, .f32⟩) main_call1_v0) Host.negf,
    TRef.unary (TRef.of (T := ⟨S4096x4096, .f32⟩) main_call1_v0) (TRef.of (T := ⟨S4096x4096, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x4096, .f32⟩) main_call1_v2) (broadcastInDim S4096x4096 ![] bcast_S_S4096x4096),
    TRef.binary (TRef.of (T := ⟨S4096x4096, .f32⟩) main_call1_v2) (TRef.of (T := ⟨S4096x4096, .f32⟩) main_call1_v1) (TRef.of (T := ⟨S4096x4096, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x4096, .f32⟩) main_call1_v4) (broadcastInDim S4096x4096 ![] bcast_S_S4096x4096),
    TRef.binary (TRef.of (T := ⟨S4096x4096, .f32⟩) main_call1_v4) (TRef.of (T := ⟨S4096x4096, .f32⟩) main_call1_v3) (TRef.of (T := ⟨S4096x4096, .f32⟩) main_call1_v5) Host.divf,
    TRef.binary (TRef.of (T := ⟨S4096x4096, .f32⟩) main_v11) (TRef.of (T := ⟨S4096x4096, .f32⟩) main_call1_v5) (TRef.of (T := ⟨S4096x4096, .f32⟩) main_v16) mulf,
    binary main_v16 main_v15 main_v17 (mulf : (⟨S4096x4096, .f32⟩ : BufTy).Contents (Elt F) → (⟨S4096x4096, .f32⟩ : BufTy).Contents (Elt F) → (⟨S4096x4096, .f32⟩ : BufTy).Contents (Elt F)),
    unary main_v7 main_v18 (broadcastInDim S4096x1 ![0] bcast_S4096_S4096x1_0 : (⟨S4096, .f32⟩ : BufTy).Contents (Elt F) → (⟨S4096x1, .f32⟩ : BufTy).Contents (Elt F)),
    unary main_arg5 main_v19 ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)),
    reshape main_v19 main_v20 rfl shapeCasts_S1x1024x4096_S1024x4096,
    unary main_v20 main_v21 ((transpose S4096x1024 [1, 0] · transposes_S1024x4096_S4096x1024_1_0) : (⟨S1024x4096, .f32⟩ : BufTy).Contents (Elt F) → (⟨S4096x1024, .f32⟩ : BufTy).Contents (Elt F)),
    binary main_v17 main_v21 main_v22 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v18 main_v23 (broadcastInDim S4096x1024 ![0, 1] bcast_S4096x1_S4096x1024_0_1 : (⟨S4096x1, .f32⟩ : BufTy).Contents (Elt F) → (⟨S4096x1024, .f32⟩ : BufTy).Contents (Elt F)),
    binary main_v23 main_v22 main_v24 (mulf : (⟨S4096x1024, .f32⟩ : BufTy).Contents (Elt F) → (⟨S4096x1024, .f32⟩ : BufTy).Contents (Elt F) → (⟨S4096x1024, .f32⟩ : BufTy).Contents (Elt F)),
    binary main_v3 main_v24 main_v25 (addf : (⟨S4096x1024, .f32⟩ : BufTy).Contents (Elt F) → (⟨S4096x1024, .f32⟩ : BufTy).Contents (Elt F) → (⟨S4096x1024, .f32⟩ : BufTy).Contents (Elt F)),
    nullary main_c_2 (constantI S_ 32 1#32),
    unary main_c_2 main_v26 (broadcastInDim S4096x2 ![] bcast_S_S4096x2 : (⟨S_, .i32⟩ : BufTy).Contents (Elt F) → (⟨S4096x2, .i32⟩ : BufTy).Contents (Elt F)),
    binary main_v1 main_v26 main_v27 (cmpi .eq : (⟨S4096x2, .i32⟩ : BufTy).Contents (Elt F) → (⟨S4096x2, .i32⟩ : BufTy).Contents (Elt F) → (⟨S4096x2, .i1⟩ : BufTy).Contents (Elt F)),
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S4096x2, .f32⟩) main_call2_v1) (broadcastInDim S4096x2 ![] bcast_S_S4096x2),
    TRef.ternary (TRef.of (T := ⟨S4096x2, .i1⟩) main_v27) (TRef.of (T := ⟨S4096x2, .f32⟩) main_v2) (TRef.of (T := ⟨S4096x2, .f32⟩) main_call2_v1) (TRef.of (T := ⟨S4096x2, .f32⟩) main_v28) select,
    nullary main_cst_4 (constant S_ .f32 0x00000000#32),
    binary main_v28 main_cst_4 main_v29 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v30 ((extractStridedSlice S1x4096x1024 ![1, 0, 0] · slices_S8x4096x1024_S1x4096x1024_1_0_0) : (⟨S8x4096x1024, .f32⟩ : BufTy).Contents (Elt F) → (⟨S1x4096x1024, .f32⟩ : BufTy).Contents (Elt F)),
    reshape main_v30 main_v31 rfl shapeCasts_S1x4096x1024_S4096x1024,
    unary main_v31 main_v32 ((transpose S1024x4096 [1, 0] · transposes_S4096x1024_S1024x4096_1_0) : (⟨S4096x1024, .f32⟩ : BufTy).Contents (Elt F) → (⟨S1024x4096, .f32⟩ : BufTy).Contents (Elt F)),
    binary main_v0 main_v32 main_v33 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v34 ((extractStridedSlice S1x4096x1024 ![1, 0, 0] · slices_S8x4096x1024_S1x4096x1024_1_0_0) : (⟨S8x4096x1024, .f32⟩ : BufTy).Contents (Elt F) → (⟨S1x4096x1024, .f32⟩ : BufTy).Contents (Elt F)),
    reshape main_v34 main_v35 rfl shapeCasts_S1x4096x1024_S4096x1024,
    unary main_v35 main_v36 ((transpose S1024x4096 [1, 0] · transposes_S4096x1024_S1024x4096_1_0) : (⟨S4096x1024, .f32⟩ : BufTy).Contents (Elt F) → (⟨S1024x4096, .f32⟩ : BufTy).Contents (Elt F)),
    binary main_v0 main_v36 main_v37 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v33) (TRef.of (T := ⟨S4096x4096, .f32⟩) main_call3_v0) Host.negf,
    TRef.unary (TRef.of (T := ⟨S4096x4096, .f32⟩) main_call3_v0) (TRef.of (T := ⟨S4096x4096, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x4096, .f32⟩) main_call3_v2) (broadcastInDim S4096x4096 ![] bcast_S_S4096x4096),
    TRef.binary (TRef.of (T := ⟨S4096x4096, .f32⟩) main_call3_v2) (TRef.of (T := ⟨S4096x4096, .f32⟩) main_call3_v1) (TRef.of (T := ⟨S4096x4096, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x4096, .f32⟩) main_call3_v4) (broadcastInDim S4096x4096 ![] bcast_S_S4096x4096),
    TRef.binary (TRef.of (T := ⟨S4096x4096, .f32⟩) main_call3_v4) (TRef.of (T := ⟨S4096x4096, .f32⟩) main_call3_v3) (TRef.of (T := ⟨S4096x4096, .f32⟩) main_call3_v5) Host.divf,
    TRef.binary (TRef.of (T := ⟨S4096x4096, .f32⟩) main_v33) (TRef.of (T := ⟨S4096x4096, .f32⟩) main_call3_v5) (TRef.of (T := ⟨S4096x4096, .f32⟩) main_v38) mulf,
    binary main_v38 main_v37 main_v39 (mulf : (⟨S4096x4096, .f32⟩ : BufTy).Contents (Elt F) → (⟨S4096x4096, .f32⟩ : BufTy).Contents (Elt F) → (⟨S4096x4096, .f32⟩ : BufTy).Contents (Elt F)),
    unary main_v29 main_v40 (broadcastInDim S4096x1 ![0] bcast_S4096_S4096x1_0 : (⟨S4096, .f32⟩ : BufTy).Contents (Elt F) → (⟨S4096x1, .f32⟩ : BufTy).Contents (Elt F)),
    unary main_arg5 main_v41 ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)),
    reshape main_v41 main_v42 rfl shapeCasts_S1x1024x4096_S1024x4096,
    unary main_v42 main_v43 ((transpose S4096x1024 [1, 0] · transposes_S1024x4096_S4096x1024_1_0) : (⟨S1024x4096, .f32⟩ : BufTy).Contents (Elt F) → (⟨S4096x1024, .f32⟩ : BufTy).Contents (Elt F)),
    binary main_v39 main_v43 main_v44 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v40 main_v45 (broadcastInDim S4096x1024 ![0, 1] bcast_S4096x1_S4096x1024_0_1 : (⟨S4096x1, .f32⟩ : BufTy).Contents (Elt F) → (⟨S4096x1024, .f32⟩ : BufTy).Contents (Elt F)),
    binary main_v45 main_v44 main_v46 (mulf : (⟨S4096x1024, .f32⟩ : BufTy).Contents (Elt F) → (⟨S4096x1024, .f32⟩ : BufTy).Contents (Elt F) → (⟨S4096x1024, .f32⟩ : BufTy).Contents (Elt F)),
    binary main_v25 main_v46 main_v47 (addf : (⟨S4096x1024, .f32⟩ : BufTy).Contents (Elt F) → (⟨S4096x1024, .f32⟩ : BufTy).Contents (Elt F) → (⟨S4096x1024, .f32⟩ : BufTy).Contents (Elt F)),
    nullary main_c_5 (constantI S_ 32 2#32),
    unary main_c_5 main_v48 (broadcastInDim S4096x2 ![] bcast_S_S4096x2 : (⟨S_, .i32⟩ : BufTy).Contents (Elt F) → (⟨S4096x2, .i32⟩ : BufTy).Contents (Elt F)),
    binary main_v1 main_v48 main_v49 (cmpi .eq : (⟨S4096x2, .i32⟩ : BufTy).Contents (Elt F) → (⟨S4096x2, .i32⟩ : BufTy).Contents (Elt F) → (⟨S4096x2, .i1⟩ : BufTy).Contents (Elt F)),
    nullary main_cst_6 (constant S_ .f32 0x00000000#32),
    TRef.unary (TRef.of (T := ⟨S_, .f32⟩) main_cst_6) (TRef.of (T := ⟨S_, .f32⟩) main_call4_v0) id,
    TRef.unary (TRef.of (T := ⟨S_, .f32⟩) main_call4_v0) (TRef.of (T := ⟨S4096x2, .f32⟩) main_call4_v1) (broadcastInDim S4096x2 ![] bcast_S_S4096x2),
    TRef.ternary (TRef.of (T := ⟨S4096x2, .i1⟩) main_v49) (TRef.of (T := ⟨S4096x2, .f32⟩) main_v2) (TRef.of (T := ⟨S4096x2, .f32⟩) main_call4_v1) (TRef.of (T := ⟨S4096x2, .f32⟩) main_v50) select,
    nullary main_cst_7 (constant S_ .f32 0x00000000#32),
    binary main_v50 main_cst_7 main_v51 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v52 ((extractStridedSlice S1x4096x1024 ![2, 0, 0] · slices_S8x4096x1024_S1x4096x1024_2_0_0) : (⟨S8x4096x1024, .f32⟩ : BufTy).Contents (Elt F) → (⟨S1x4096x1024, .f32⟩ : BufTy).Contents (Elt F)),
    reshape main_v52 main_v53 rfl shapeCasts_S1x4096x1024_S4096x1024,
    unary main_v53 main_v54 ((transpose S1024x4096 [1, 0] · transposes_S4096x1024_S1024x4096_1_0) : (⟨S4096x1024, .f32⟩ : BufTy).Contents (Elt F) → (⟨S1024x4096, .f32⟩ : BufTy).Contents (Elt F)),
    binary main_v0 main_v54 main_v55 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v56 ((extractStridedSlice S1x4096x1024 ![2, 0, 0] · slices_S8x4096x1024_S1x4096x1024_2_0_0) : (⟨S8x4096x1024, .f32⟩ : BufTy).Contents (Elt F) → (⟨S1x4096x1024, .f32⟩ : BufTy).Contents (Elt F)),
    reshape main_v56 main_v57 rfl shapeCasts_S1x4096x1024_S4096x1024,
    unary main_v57 main_v58 ((transpose S1024x4096 [1, 0] · transposes_S4096x1024_S1024x4096_1_0) : (⟨S4096x1024, .f32⟩ : BufTy).Contents (Elt F) → (⟨S1024x4096, .f32⟩ : BufTy).Contents (Elt F)),
    binary main_v0 main_v58 main_v59 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v55) (TRef.of (T := ⟨S4096x4096, .f32⟩) main_call5_v0) Host.negf,
    TRef.unary (TRef.of (T := ⟨S4096x4096, .f32⟩) main_call5_v0) (TRef.of (T := ⟨S4096x4096, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x4096, .f32⟩) main_call5_v2) (broadcastInDim S4096x4096 ![] bcast_S_S4096x4096),
    TRef.binary (TRef.of (T := ⟨S4096x4096, .f32⟩) main_call5_v2) (TRef.of (T := ⟨S4096x4096, .f32⟩) main_call5_v1) (TRef.of (T := ⟨S4096x4096, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x4096, .f32⟩) main_call5_v4) (broadcastInDim S4096x4096 ![] bcast_S_S4096x4096),
    TRef.binary (TRef.of (T := ⟨S4096x4096, .f32⟩) main_call5_v4) (TRef.of (T := ⟨S4096x4096, .f32⟩) main_call5_v3) (TRef.of (T := ⟨S4096x4096, .f32⟩) main_call5_v5) Host.divf,
    TRef.binary (TRef.of (T := ⟨S4096x4096, .f32⟩) main_v55) (TRef.of (T := ⟨S4096x4096, .f32⟩) main_call5_v5) (TRef.of (T := ⟨S4096x4096, .f32⟩) main_v60) mulf,
    binary main_v60 main_v59 main_v61 (mulf : (⟨S4096x4096, .f32⟩ : BufTy).Contents (Elt F) → (⟨S4096x4096, .f32⟩ : BufTy).Contents (Elt F) → (⟨S4096x4096, .f32⟩ : BufTy).Contents (Elt F)),
    unary main_v51 main_v62 (broadcastInDim S4096x1 ![0] bcast_S4096_S4096x1_0 : (⟨S4096, .f32⟩ : BufTy).Contents (Elt F) → (⟨S4096x1, .f32⟩ : BufTy).Contents (Elt F)),
    unary main_arg5 main_v63 ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)),
    reshape main_v63 main_v64 rfl shapeCasts_S1x1024x4096_S1024x4096,
    unary main_v64 main_v65 ((transpose S4096x1024 [1, 0] · transposes_S1024x4096_S4096x1024_1_0) : (⟨S1024x4096, .f32⟩ : BufTy).Contents (Elt F) → (⟨S4096x1024, .f32⟩ : BufTy).Contents (Elt F)),
    binary main_v61 main_v65 main_v66 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v62 main_v67 (broadcastInDim S4096x1024 ![0, 1] bcast_S4096x1_S4096x1024_0_1 : (⟨S4096x1, .f32⟩ : BufTy).Contents (Elt F) → (⟨S4096x1024, .f32⟩ : BufTy).Contents (Elt F)),
    binary main_v67 main_v66 main_v68 (mulf : (⟨S4096x1024, .f32⟩ : BufTy).Contents (Elt F) → (⟨S4096x1024, .f32⟩ : BufTy).Contents (Elt F) → (⟨S4096x1024, .f32⟩ : BufTy).Contents (Elt F)),
    binary main_v47 main_v68 main_v69 (addf : (⟨S4096x1024, .f32⟩ : BufTy).Contents (Elt F) → (⟨S4096x1024, .f32⟩ : BufTy).Contents (Elt F) → (⟨S4096x1024, .f32⟩ : BufTy).Contents (Elt F)),
    nullary main_c_8 (constantI S_ 32 3#32),
    unary main_c_8 main_v70 (broadcastInDim S4096x2 ![] bcast_S_S4096x2 : (⟨S_, .i32⟩ : BufTy).Contents (Elt F) → (⟨S4096x2, .i32⟩ : BufTy).Contents (Elt F)),
    binary main_v1 main_v70 main_v71 (cmpi .eq : (⟨S4096x2, .i32⟩ : BufTy).Contents (Elt F) → (⟨S4096x2, .i32⟩ : BufTy).Contents (Elt F) → (⟨S4096x2, .i1⟩ : BufTy).Contents (Elt F)),
    nullary main_cst_9 (constant S_ .f32 0x00000000#32),
    TRef.unary (TRef.of (T := ⟨S_, .f32⟩) main_cst_9) (TRef.of (T := ⟨S_, .f32⟩) main_call6_v0) id,
    TRef.unary (TRef.of (T := ⟨S_, .f32⟩) main_call6_v0) (TRef.of (T := ⟨S4096x2, .f32⟩) main_call6_v1) (broadcastInDim S4096x2 ![] bcast_S_S4096x2),
    TRef.ternary (TRef.of (T := ⟨S4096x2, .i1⟩) main_v71) (TRef.of (T := ⟨S4096x2, .f32⟩) main_v2) (TRef.of (T := ⟨S4096x2, .f32⟩) main_call6_v1) (TRef.of (T := ⟨S4096x2, .f32⟩) main_v72) select,
    nullary main_cst_10 (constant S_ .f32 0x00000000#32),
    binary main_v72 main_cst_10 main_v73 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v74 ((extractStridedSlice S1x4096x1024 ![3, 0, 0] · slices_S8x4096x1024_S1x4096x1024_3_0_0) : (⟨S8x4096x1024, .f32⟩ : BufTy).Contents (Elt F) → (⟨S1x4096x1024, .f32⟩ : BufTy).Contents (Elt F)),
    reshape main_v74 main_v75 rfl shapeCasts_S1x4096x1024_S4096x1024,
    unary main_v75 main_v76 ((transpose S1024x4096 [1, 0] · transposes_S4096x1024_S1024x4096_1_0) : (⟨S4096x1024, .f32⟩ : BufTy).Contents (Elt F) → (⟨S1024x4096, .f32⟩ : BufTy).Contents (Elt F)),
    binary main_v0 main_v76 main_v77 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v78 ((extractStridedSlice S1x4096x1024 ![3, 0, 0] · slices_S8x4096x1024_S1x4096x1024_3_0_0) : (⟨S8x4096x1024, .f32⟩ : BufTy).Contents (Elt F) → (⟨S1x4096x1024, .f32⟩ : BufTy).Contents (Elt F)),
    reshape main_v78 main_v79 rfl shapeCasts_S1x4096x1024_S4096x1024,
    unary main_v79 main_v80 ((transpose S1024x4096 [1, 0] · transposes_S4096x1024_S1024x4096_1_0) : (⟨S4096x1024, .f32⟩ : BufTy).Contents (Elt F) → (⟨S1024x4096, .f32⟩ : BufTy).Contents (Elt F)),
    binary main_v0 main_v80 main_v81 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v77) (TRef.of (T := ⟨S4096x4096, .f32⟩) main_call7_v0) Host.negf,
    TRef.unary (TRef.of (T := ⟨S4096x4096, .f32⟩) main_call7_v0) (TRef.of (T := ⟨S4096x4096, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x4096, .f32⟩) main_call7_v2) (broadcastInDim S4096x4096 ![] bcast_S_S4096x4096),
    TRef.binary (TRef.of (T := ⟨S4096x4096, .f32⟩) main_call7_v2) (TRef.of (T := ⟨S4096x4096, .f32⟩) main_call7_v1) (TRef.of (T := ⟨S4096x4096, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x4096, .f32⟩) main_call7_v4) (broadcastInDim S4096x4096 ![] bcast_S_S4096x4096),
    TRef.binary (TRef.of (T := ⟨S4096x4096, .f32⟩) main_call7_v4) (TRef.of (T := ⟨S4096x4096, .f32⟩) main_call7_v3) (TRef.of (T := ⟨S4096x4096, .f32⟩) main_call7_v5) Host.divf,
    TRef.binary (TRef.of (T := ⟨S4096x4096, .f32⟩) main_v77) (TRef.of (T := ⟨S4096x4096, .f32⟩) main_call7_v5) (TRef.of (T := ⟨S4096x4096, .f32⟩) main_v82) mulf,
    binary main_v82 main_v81 main_v83 (mulf : (⟨S4096x4096, .f32⟩ : BufTy).Contents (Elt F) → (⟨S4096x4096, .f32⟩ : BufTy).Contents (Elt F) → (⟨S4096x4096, .f32⟩ : BufTy).Contents (Elt F)),
    unary main_v73 main_v84 (broadcastInDim S4096x1 ![0] bcast_S4096_S4096x1_0 : (⟨S4096, .f32⟩ : BufTy).Contents (Elt F) → (⟨S4096x1, .f32⟩ : BufTy).Contents (Elt F)),
    unary main_arg5 main_v85 ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)),
    reshape main_v85 main_v86 rfl shapeCasts_S1x1024x4096_S1024x4096,
    unary main_v86 main_v87 ((transpose S4096x1024 [1, 0] · transposes_S1024x4096_S4096x1024_1_0) : (⟨S1024x4096, .f32⟩ : BufTy).Contents (Elt F) → (⟨S4096x1024, .f32⟩ : BufTy).Contents (Elt F)),
    binary main_v83 main_v87 main_v88 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v84 main_v89 (broadcastInDim S4096x1024 ![0, 1] bcast_S4096x1_S4096x1024_0_1 : (⟨S4096x1, .f32⟩ : BufTy).Contents (Elt F) → (⟨S4096x1024, .f32⟩ : BufTy).Contents (Elt F)),
    binary main_v89 main_v88 main_v90 (mulf : (⟨S4096x1024, .f32⟩ : BufTy).Contents (Elt F) → (⟨S4096x1024, .f32⟩ : BufTy).Contents (Elt F) → (⟨S4096x1024, .f32⟩ : BufTy).Contents (Elt F)),
    binary main_v69 main_v90 main_v91 (addf : (⟨S4096x1024, .f32⟩ : BufTy).Contents (Elt F) → (⟨S4096x1024, .f32⟩ : BufTy).Contents (Elt F) → (⟨S4096x1024, .f32⟩ : BufTy).Contents (Elt F)),
    nullary main_c_11 (constantI S_ 32 4#32),
    unary main_c_11 main_v92 (broadcastInDim S4096x2 ![] bcast_S_S4096x2 : (⟨S_, .i32⟩ : BufTy).Contents (Elt F) → (⟨S4096x2, .i32⟩ : BufTy).Contents (Elt F)),
    binary main_v1 main_v92 main_v93 (cmpi .eq : (⟨S4096x2, .i32⟩ : BufTy).Contents (Elt F) → (⟨S4096x2, .i32⟩ : BufTy).Contents (Elt F) → (⟨S4096x2, .i1⟩ : BufTy).Contents (Elt F)),
    nullary main_cst_12 (constant S_ .f32 0x00000000#32),
    TRef.unary (TRef.of (T := ⟨S_, .f32⟩) main_cst_12) (TRef.of (T := ⟨S_, .f32⟩) main_call8_v0) id,
    TRef.unary (TRef.of (T := ⟨S_, .f32⟩) main_call8_v0) (TRef.of (T := ⟨S4096x2, .f32⟩) main_call8_v1) (broadcastInDim S4096x2 ![] bcast_S_S4096x2),
    TRef.ternary (TRef.of (T := ⟨S4096x2, .i1⟩) main_v93) (TRef.of (T := ⟨S4096x2, .f32⟩) main_v2) (TRef.of (T := ⟨S4096x2, .f32⟩) main_call8_v1) (TRef.of (T := ⟨S4096x2, .f32⟩) main_v94) select,
    nullary main_cst_13 (constant S_ .f32 0x00000000#32),
    binary main_v94 main_cst_13 main_v95 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v96 ((extractStridedSlice S1x4096x1024 ![4, 0, 0] · slices_S8x4096x1024_S1x4096x1024_4_0_0) : (⟨S8x4096x1024, .f32⟩ : BufTy).Contents (Elt F) → (⟨S1x4096x1024, .f32⟩ : BufTy).Contents (Elt F)),
    reshape main_v96 main_v97 rfl shapeCasts_S1x4096x1024_S4096x1024,
    unary main_v97 main_v98 ((transpose S1024x4096 [1, 0] · transposes_S4096x1024_S1024x4096_1_0) : (⟨S4096x1024, .f32⟩ : BufTy).Contents (Elt F) → (⟨S1024x4096, .f32⟩ : BufTy).Contents (Elt F)),
    binary main_v0 main_v98 main_v99 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v100 ((extractStridedSlice S1x4096x1024 ![4, 0, 0] · slices_S8x4096x1024_S1x4096x1024_4_0_0) : (⟨S8x4096x1024, .f32⟩ : BufTy).Contents (Elt F) → (⟨S1x4096x1024, .f32⟩ : BufTy).Contents (Elt F)),
    reshape main_v100 main_v101 rfl shapeCasts_S1x4096x1024_S4096x1024,
    unary main_v101 main_v102 ((transpose S1024x4096 [1, 0] · transposes_S4096x1024_S1024x4096_1_0) : (⟨S4096x1024, .f32⟩ : BufTy).Contents (Elt F) → (⟨S1024x4096, .f32⟩ : BufTy).Contents (Elt F)),
    binary main_v0 main_v102 main_v103 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v99) (TRef.of (T := ⟨S4096x4096, .f32⟩) main_call9_v0) Host.negf,
    TRef.unary (TRef.of (T := ⟨S4096x4096, .f32⟩) main_call9_v0) (TRef.of (T := ⟨S4096x4096, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S4096x4096, .f32⟩) main_call9_v2) (broadcastInDim S4096x4096 ![] bcast_S_S4096x4096),
    TRef.binary (TRef.of (T := ⟨S4096x4096, .f32⟩) main_call9_v2) (TRef.of (T := ⟨S4096x4096, .f32⟩) main_call9_v1) (TRef.of (T := ⟨S4096x4096, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S4096x4096, .f32⟩) main_call9_v4) (broadcastInDim S4096x4096 ![] bcast_S_S4096x4096),
    TRef.binary (TRef.of (T := ⟨S4096x4096, .f32⟩) main_call9_v4) (TRef.of (T := ⟨S4096x4096, .f32⟩) main_call9_v3) (TRef.of (T := ⟨S4096x4096, .f32⟩) main_call9_v5) Host.divf,
    TRef.binary (TRef.of (T := ⟨S4096x4096, .f32⟩) main_v99) (TRef.of (T := ⟨S4096x4096, .f32⟩) main_call9_v5) (TRef.of (T := ⟨S4096x4096, .f32⟩) main_v104) mulf,
    binary main_v104 main_v103 main_v105 (mulf : (⟨S4096x4096, .f32⟩ : BufTy).Contents (Elt F) → (⟨S4096x4096, .f32⟩ : BufTy).Contents (Elt F) → (⟨S4096x4096, .f32⟩ : BufTy).Contents (Elt F)),
    unary main_v95 main_v106 (broadcastInDim S4096x1 ![0] bcast_S4096_S4096x1_0 : (⟨S4096, .f32⟩ : BufTy).Contents (Elt F) → (⟨S4096x1, .f32⟩ : BufTy).Contents (Elt F)),
    unary main_arg5 main_v107 ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)),
    reshape main_v107 main_v108 rfl shapeCasts_S1x1024x4096_S1024x4096,
    unary main_v108 main_v109 ((transpose S4096x1024 [1, 0] · transposes_S1024x4096_S4096x1024_1_0) : (⟨S1024x4096, .f32⟩ : BufTy).Contents (Elt F) → (⟨S4096x1024, .f32⟩ : BufTy).Contents (Elt F)),
    binary main_v105 main_v109 main_v110 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v106 main_v111 (broadcastInDim S4096x1024 ![0, 1] bcast_S4096x1_S4096x1024_0_1 : (⟨S4096x1, .f32⟩ : BufTy).Contents (Elt F) → (⟨S4096x1024, .f32⟩ : BufTy).Contents (Elt F)),
    binary main_v111 main_v110 main_v112 (mulf : (⟨S4096x1024, .f32⟩ : BufTy).Contents (Elt F) → (⟨S4096x1024, .f32⟩ : BufTy).Contents (Elt F) → (⟨S4096x1024, .f32⟩ : BufTy).Contents (Elt F)),
    binary main_v91 main_v112 main_v113 (addf : (⟨S4096x1024, .f32⟩ : BufTy).Contents (Elt F) → (⟨S4096x1024, .f32⟩ : BufTy).Contents (Elt F) → (⟨S4096x1024, .f32⟩ : BufTy).Contents (Elt F)),
    nullary main_c_14 (constantI S_ 32 5#32),
    unary main_c_14 main_v114 (broadcastInDim S4096x2 ![] bcast_S_S4096x2 : (⟨S_, .i32⟩ : BufTy).Contents (Elt F) → (⟨S4096x2, .i32⟩ : BufTy).Contents (Elt F)),
    binary main_v1 main_v114 main_v115 (cmpi .eq : (⟨S4096x2, .i32⟩ : BufTy).Contents (Elt F) → (⟨S4096x2, .i32⟩ : BufTy).Contents (Elt F) → (⟨S4096x2, .i1⟩ : BufTy).Contents (Elt F)),
    nullary main_cst_15 (constant S_ .f32 0x00000000#32),
    TRef.unary (TRef.of (T := ⟨S_, .f32⟩) main_cst_15) (TRef.of (T := ⟨S_, .f32⟩) main_call10_v0) id,
    TRef.unary (TRef.of (T := ⟨S_, .f32⟩) main_call10_v0) (TRef.of (T := ⟨S4096x2, .f32⟩) main_call10_v1) (broadcastInDim S4096x2 ![] bcast_S_S4096x2),
    TRef.ternary (TRef.of (T := ⟨S4096x2, .i1⟩) main_v115) (TRef.of (T := ⟨S4096x2, .f32⟩) main_v2) (TRef.of (T := ⟨S4096x2, .f32⟩) main_call10_v1) (TRef.of (T := ⟨S4096x2, .f32⟩) main_v116) select,
    nullary main_cst_16 (constant S_ .f32 0x00000000#32),
    binary main_v116 main_cst_16 main_v117 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v118 ((extractStridedSlice S1x4096x1024 ![5, 0, 0] · slices_S8x4096x1024_S1x4096x1024_5_0_0) : (⟨S8x4096x1024, .f32⟩ : BufTy).Contents (Elt F) → (⟨S1x4096x1024, .f32⟩ : BufTy).Contents (Elt F)),
    reshape main_v118 main_v119 rfl shapeCasts_S1x4096x1024_S4096x1024,
    unary main_v119 main_v120 ((transpose S1024x4096 [1, 0] · transposes_S4096x1024_S1024x4096_1_0) : (⟨S4096x1024, .f32⟩ : BufTy).Contents (Elt F) → (⟨S1024x4096, .f32⟩ : BufTy).Contents (Elt F)),
    binary main_v0 main_v120 main_v121 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v122 ((extractStridedSlice S1x4096x1024 ![5, 0, 0] · slices_S8x4096x1024_S1x4096x1024_5_0_0) : (⟨S8x4096x1024, .f32⟩ : BufTy).Contents (Elt F) → (⟨S1x4096x1024, .f32⟩ : BufTy).Contents (Elt F)),
    reshape main_v122 main_v123 rfl shapeCasts_S1x4096x1024_S4096x1024,
    unary main_v123 main_v124 ((transpose S1024x4096 [1, 0] · transposes_S4096x1024_S1024x4096_1_0) : (⟨S4096x1024, .f32⟩ : BufTy).Contents (Elt F) → (⟨S1024x4096, .f32⟩ : BufTy).Contents (Elt F)),
    binary main_v0 main_v124 main_v125 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v121) (TRef.of (T := ⟨S4096x4096, .f32⟩) main_call11_v0) Host.negf,
    TRef.unary (TRef.of (T := ⟨S4096x4096, .f32⟩) main_call11_v0) (TRef.of (T := ⟨S4096x4096, .f32⟩) main_call11_v1) Host.exp,
    TRef.nullary (TRef.of (T := ⟨S_, .f32⟩) main_call11_cst) (constant S_ .f32 0x3F800000#32),
    TRef.unary (TRef.of (T := ⟨S_, .f32⟩) main_call11_cst) (TRef.of (T := ⟨S4096x4096, .f32⟩) main_call11_v2) (broadcastInDim S4096x4096 ![] bcast_S_S4096x4096),
    TRef.binary (TRef.of (T := ⟨S4096x4096, .f32⟩) main_call11_v2) (TRef.of (T := ⟨S4096x4096, .f32⟩) main_call11_v1) (TRef.of (T := ⟨S4096x4096, .f32⟩) main_call11_v3) addf,
    TRef.nullary (TRef.of (T := ⟨S_, .f32⟩) main_call11_cst_0) (constant S_ .f32 0x3F800000#32),
    TRef.unary (TRef.of (T := ⟨S_, .f32⟩) main_call11_cst_0) (TRef.of (T := ⟨S4096x4096, .f32⟩) main_call11_v4) (broadcastInDim S4096x4096 ![] bcast_S_S4096x4096),
    TRef.binary (TRef.of (T := ⟨S4096x4096, .f32⟩) main_call11_v4) (TRef.of (T := ⟨S4096x4096, .f32⟩) main_call11_v3) (TRef.of (T := ⟨S4096x4096, .f32⟩) main_call11_v5) Host.divf,
    TRef.binary (TRef.of (T := ⟨S4096x4096, .f32⟩) main_v121) (TRef.of (T := ⟨S4096x4096, .f32⟩) main_call11_v5) (TRef.of (T := ⟨S4096x4096, .f32⟩) main_v126) mulf,
    binary main_v126 main_v125 main_v127 (mulf : (⟨S4096x4096, .f32⟩ : BufTy).Contents (Elt F) → (⟨S4096x4096, .f32⟩ : BufTy).Contents (Elt F) → (⟨S4096x4096, .f32⟩ : BufTy).Contents (Elt F)),
    unary main_v117 main_v128 (broadcastInDim S4096x1 ![0] bcast_S4096_S4096x1_0 : (⟨S4096, .f32⟩ : BufTy).Contents (Elt F) → (⟨S4096x1, .f32⟩ : BufTy).Contents (Elt F)),
    unary main_arg5 main_v129 ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)),
    reshape main_v129 main_v130 rfl shapeCasts_S1x1024x4096_S1024x4096,
    unary main_v130 main_v131 ((transpose S4096x1024 [1, 0] · transposes_S1024x4096_S4096x1024_1_0) : (⟨S1024x4096, .f32⟩ : BufTy).Contents (Elt F) → (⟨S4096x1024, .f32⟩ : BufTy).Contents (Elt F)),
    binary main_v127 main_v131 main_v132 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v128 main_v133 (broadcastInDim S4096x1024 ![0, 1] bcast_S4096x1_S4096x1024_0_1 : (⟨S4096x1, .f32⟩ : BufTy).Contents (Elt F) → (⟨S4096x1024, .f32⟩ : BufTy).Contents (Elt F)),
    binary main_v133 main_v132 main_v134 (mulf : (⟨S4096x1024, .f32⟩ : BufTy).Contents (Elt F) → (⟨S4096x1024, .f32⟩ : BufTy).Contents (Elt F) → (⟨S4096x1024, .f32⟩ : BufTy).Contents (Elt F)),
    binary main_v113 main_v134 main_v135 (addf : (⟨S4096x1024, .f32⟩ : BufTy).Contents (Elt F) → (⟨S4096x1024, .f32⟩ : BufTy).Contents (Elt F) → (⟨S4096x1024, .f32⟩ : BufTy).Contents (Elt F)),
    nullary main_c_17 (constantI S_ 32 6#32),
    unary main_c_17 main_v136 (broadcastInDim S4096x2 ![] bcast_S_S4096x2 : (⟨S_, .i32⟩ : BufTy).Contents (Elt F) → (⟨S4096x2, .i32⟩ : BufTy).Contents (Elt F)),
    binary main_v1 main_v136 main_v137 (cmpi .eq : (⟨S4096x2, .i32⟩ : BufTy).Contents (Elt F) → (⟨S4096x2, .i32⟩ : BufTy).Contents (Elt F) → (⟨S4096x2, .i1⟩ : BufTy).Contents (Elt F)),
    nullary main_cst_18 (constant S_ .f32 0x00000000#32),
    TRef.unary (TRef.of (T := ⟨S_, .f32⟩) main_cst_18) (TRef.of (T := ⟨S_, .f32⟩) main_call12_v0) id,
    TRef.unary (TRef.of (T := ⟨S_, .f32⟩) main_call12_v0) (TRef.of (T := ⟨S4096x2, .f32⟩) main_call12_v1) (broadcastInDim S4096x2 ![] bcast_S_S4096x2),
    TRef.ternary (TRef.of (T := ⟨S4096x2, .i1⟩) main_v137) (TRef.of (T := ⟨S4096x2, .f32⟩) main_v2) (TRef.of (T := ⟨S4096x2, .f32⟩) main_call12_v1) (TRef.of (T := ⟨S4096x2, .f32⟩) main_v138) select,
    nullary main_cst_19 (constant S_ .f32 0x00000000#32),
    binary main_v138 main_cst_19 main_v139 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v140 ((extractStridedSlice S1x4096x1024 ![6, 0, 0] · slices_S8x4096x1024_S1x4096x1024_6_0_0) : (⟨S8x4096x1024, .f32⟩ : BufTy).Contents (Elt F) → (⟨S1x4096x1024, .f32⟩ : BufTy).Contents (Elt F)),
    reshape main_v140 main_v141 rfl shapeCasts_S1x4096x1024_S4096x1024,
    unary main_v141 main_v142 ((transpose S1024x4096 [1, 0] · transposes_S4096x1024_S1024x4096_1_0) : (⟨S4096x1024, .f32⟩ : BufTy).Contents (Elt F) → (⟨S1024x4096, .f32⟩ : BufTy).Contents (Elt F)),
    binary main_v0 main_v142 main_v143 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v144 ((extractStridedSlice S1x4096x1024 ![6, 0, 0] · slices_S8x4096x1024_S1x4096x1024_6_0_0) : (⟨S8x4096x1024, .f32⟩ : BufTy).Contents (Elt F) → (⟨S1x4096x1024, .f32⟩ : BufTy).Contents (Elt F)),
    reshape main_v144 main_v145 rfl shapeCasts_S1x4096x1024_S4096x1024,
    unary main_v145 main_v146 ((transpose S1024x4096 [1, 0] · transposes_S4096x1024_S1024x4096_1_0) : (⟨S4096x1024, .f32⟩ : BufTy).Contents (Elt F) → (⟨S1024x4096, .f32⟩ : BufTy).Contents (Elt F)),
    binary main_v0 main_v146 main_v147 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v143) (TRef.of (T := ⟨S4096x4096, .f32⟩) main_call13_v0) Host.negf,
    TRef.unary (TRef.of (T := ⟨S4096x4096, .f32⟩) main_call13_v0) (TRef.of (T := ⟨S4096x4096, .f32⟩) main_call13_v1) Host.exp,
    TRef.nullary (TRef.of (T := ⟨S_, .f32⟩) main_call13_cst) (constant S_ .f32 0x3F800000#32),
    TRef.unary (TRef.of (T := ⟨S_, .f32⟩) main_call13_cst) (TRef.of (T := ⟨S4096x4096, .f32⟩) main_call13_v2) (broadcastInDim S4096x4096 ![] bcast_S_S4096x4096),
    TRef.binary (TRef.of (T := ⟨S4096x4096, .f32⟩) main_call13_v2) (TRef.of (T := ⟨S4096x4096, .f32⟩) main_call13_v1) (TRef.of (T := ⟨S4096x4096, .f32⟩) main_call13_v3) addf,
    TRef.nullary (TRef.of (T := ⟨S_, .f32⟩) main_call13_cst_0) (constant S_ .f32 0x3F800000#32),
    TRef.unary (TRef.of (T := ⟨S_, .f32⟩) main_call13_cst_0) (TRef.of (T := ⟨S4096x4096, .f32⟩) main_call13_v4) (broadcastInDim S4096x4096 ![] bcast_S_S4096x4096),
    TRef.binary (TRef.of (T := ⟨S4096x4096, .f32⟩) main_call13_v4) (TRef.of (T := ⟨S4096x4096, .f32⟩) main_call13_v3) (TRef.of (T := ⟨S4096x4096, .f32⟩) main_call13_v5) Host.divf,
    TRef.binary (TRef.of (T := ⟨S4096x4096, .f32⟩) main_v143) (TRef.of (T := ⟨S4096x4096, .f32⟩) main_call13_v5) (TRef.of (T := ⟨S4096x4096, .f32⟩) main_v148) mulf,
    binary main_v148 main_v147 main_v149 (mulf : (⟨S4096x4096, .f32⟩ : BufTy).Contents (Elt F) → (⟨S4096x4096, .f32⟩ : BufTy).Contents (Elt F) → (⟨S4096x4096, .f32⟩ : BufTy).Contents (Elt F)),
    unary main_v139 main_v150 (broadcastInDim S4096x1 ![0] bcast_S4096_S4096x1_0 : (⟨S4096, .f32⟩ : BufTy).Contents (Elt F) → (⟨S4096x1, .f32⟩ : BufTy).Contents (Elt F)),
    unary main_arg5 main_v151 ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)),
    reshape main_v151 main_v152 rfl shapeCasts_S1x1024x4096_S1024x4096,
    unary main_v152 main_v153 ((transpose S4096x1024 [1, 0] · transposes_S1024x4096_S4096x1024_1_0) : (⟨S1024x4096, .f32⟩ : BufTy).Contents (Elt F) → (⟨S4096x1024, .f32⟩ : BufTy).Contents (Elt F)),
    binary main_v149 main_v153 main_v154 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v150 main_v155 (broadcastInDim S4096x1024 ![0, 1] bcast_S4096x1_S4096x1024_0_1 : (⟨S4096x1, .f32⟩ : BufTy).Contents (Elt F) → (⟨S4096x1024, .f32⟩ : BufTy).Contents (Elt F)),
    binary main_v155 main_v154 main_v156 (mulf : (⟨S4096x1024, .f32⟩ : BufTy).Contents (Elt F) → (⟨S4096x1024, .f32⟩ : BufTy).Contents (Elt F) → (⟨S4096x1024, .f32⟩ : BufTy).Contents (Elt F)),
    binary main_v135 main_v156 main_v157 (addf : (⟨S4096x1024, .f32⟩ : BufTy).Contents (Elt F) → (⟨S4096x1024, .f32⟩ : BufTy).Contents (Elt F) → (⟨S4096x1024, .f32⟩ : BufTy).Contents (Elt F)),
    nullary main_c_20 (constantI S_ 32 7#32),
    unary main_c_20 main_v158 (broadcastInDim S4096x2 ![] bcast_S_S4096x2 : (⟨S_, .i32⟩ : BufTy).Contents (Elt F) → (⟨S4096x2, .i32⟩ : BufTy).Contents (Elt F)),
    binary main_v1 main_v158 main_v159 (cmpi .eq : (⟨S4096x2, .i32⟩ : BufTy).Contents (Elt F) → (⟨S4096x2, .i32⟩ : BufTy).Contents (Elt F) → (⟨S4096x2, .i1⟩ : BufTy).Contents (Elt F)),
    nullary main_cst_21 (constant S_ .f32 0x00000000#32),
    TRef.unary (TRef.of (T := ⟨S_, .f32⟩) main_cst_21) (TRef.of (T := ⟨S_, .f32⟩) main_call14_v0) id,
    TRef.unary (TRef.of (T := ⟨S_, .f32⟩) main_call14_v0) (TRef.of (T := ⟨S4096x2, .f32⟩) main_call14_v1) (broadcastInDim S4096x2 ![] bcast_S_S4096x2),
    TRef.ternary (TRef.of (T := ⟨S4096x2, .i1⟩) main_v159) (TRef.of (T := ⟨S4096x2, .f32⟩) main_v2) (TRef.of (T := ⟨S4096x2, .f32⟩) main_call14_v1) (TRef.of (T := ⟨S4096x2, .f32⟩) main_v160) select,
    nullary main_cst_22 (constant S_ .f32 0x00000000#32),
    binary main_v160 main_cst_22 main_v161 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    unary main_arg3 main_v162 ((extractStridedSlice S1x4096x1024 ![7, 0, 0] · slices_S8x4096x1024_S1x4096x1024_7_0_0) : (⟨S8x4096x1024, .f32⟩ : BufTy).Contents (Elt F) → (⟨S1x4096x1024, .f32⟩ : BufTy).Contents (Elt F)),
    reshape main_v162 main_v163 rfl shapeCasts_S1x4096x1024_S4096x1024,
    unary main_v163 main_v164 ((transpose S1024x4096 [1, 0] · transposes_S4096x1024_S1024x4096_1_0) : (⟨S4096x1024, .f32⟩ : BufTy).Contents (Elt F) → (⟨S1024x4096, .f32⟩ : BufTy).Contents (Elt F)),
    binary main_v0 main_v164 main_v165 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    unary main_arg4 main_v166 ((extractStridedSlice S1x4096x1024 ![7, 0, 0] · slices_S8x4096x1024_S1x4096x1024_7_0_0) : (⟨S8x4096x1024, .f32⟩ : BufTy).Contents (Elt F) → (⟨S1x4096x1024, .f32⟩ : BufTy).Contents (Elt F)),
    reshape main_v166 main_v167 rfl shapeCasts_S1x4096x1024_S4096x1024,
    unary main_v167 main_v168 ((transpose S1024x4096 [1, 0] · transposes_S4096x1024_S1024x4096_1_0) : (⟨S4096x1024, .f32⟩ : BufTy).Contents (Elt F) → (⟨S1024x4096, .f32⟩ : BufTy).Contents (Elt F)),
    binary main_v0 main_v168 main_v169 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)),
    TRef.unary (TRef.of (T := ⟨S4096x4096, .f32⟩) main_v165) (TRef.of (T := ⟨S4096x4096, .f32⟩) main_call15_v0) Host.negf,
    TRef.unary (TRef.of (T := ⟨S4096x4096, .f32⟩) main_call15_v0) (TRef.of (T := ⟨S4096x4096, .f32⟩) main_call15_v1) Host.exp,
    TRef.nullary (TRef.of (T := ⟨S_, .f32⟩) main_call15_cst) (constant S_ .f32 0x3F800000#32),
    TRef.unary (TRef.of (T := ⟨S_, .f32⟩) main_call15_cst) (TRef.of (T := ⟨S4096x4096, .f32⟩) main_call15_v2) (broadcastInDim S4096x4096 ![] bcast_S_S4096x4096),
    TRef.binary (TRef.of (T := ⟨S4096x4096, .f32⟩) main_call15_v2) (TRef.of (T := ⟨S4096x4096, .f32⟩) main_call15_v1) (TRef.of (T := ⟨S4096x4096, .f32⟩) main_call15_v3) addf,
    TRef.nullary (TRef.of (T := ⟨S_, .f32⟩) main_call15_cst_0) (constant S_ .f32 0x3F800000#32),
    TRef.unary (TRef.of (T := ⟨S_, .f32⟩) main_call15_cst_0) (TRef.of (T := ⟨S4096x4096, .f32⟩) main_call15_v4) (broadcastInDim S4096x4096 ![] bcast_S_S4096x4096),
    TRef.binary (TRef.of (T := ⟨S4096x4096, .f32⟩) main_call15_v4) (TRef.of (T := ⟨S4096x4096, .f32⟩) main_call15_v3) (TRef.of (T := ⟨S4096x4096, .f32⟩) main_call15_v5) Host.divf,
    TRef.binary (TRef.of (T := ⟨S4096x4096, .f32⟩) main_v165) (TRef.of (T := ⟨S4096x4096, .f32⟩) main_call15_v5) (TRef.of (T := ⟨S4096x4096, .f32⟩) main_v170) mulf,
    binary main_v170 main_v169 main_v171 (mulf : (⟨S4096x4096, .f32⟩ : BufTy).Contents (Elt F) → (⟨S4096x4096, .f32⟩ : BufTy).Contents (Elt F) → (⟨S4096x4096, .f32⟩ : BufTy).Contents (Elt F)),
    unary main_v161 main_v172 (broadcastInDim S4096x1 ![0] bcast_S4096_S4096x1_0 : (⟨S4096, .f32⟩ : BufTy).Contents (Elt F) → (⟨S4096x1, .f32⟩ : BufTy).Contents (Elt F)),
    unary main_arg5 main_v173 ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)),
    reshape main_v173 main_v174 rfl shapeCasts_S1x1024x4096_S1024x4096,
    unary main_v174 main_v175 ((transpose S4096x1024 [1, 0] · transposes_S1024x4096_S4096x1024_1_0) : (⟨S1024x4096, .f32⟩ : BufTy).Contents (Elt F) → (⟨S4096x1024, .f32⟩ : BufTy).Contents (Elt F)),
    binary main_v171 main_v175 main_v176 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    unary main_v172 main_v177 (broadcastInDim S4096x1024 ![0, 1] bcast_S4096x1_S4096x1024_0_1 : (⟨S4096x1, .f32⟩ : BufTy).Contents (Elt F) → (⟨S4096x1024, .f32⟩ : BufTy).Contents (Elt F)),
    binary main_v177 main_v176 main_v178 (mulf : (⟨S4096x1024, .f32⟩ : BufTy).Contents (Elt F) → (⟨S4096x1024, .f32⟩ : BufTy).Contents (Elt F) → (⟨S4096x1024, .f32⟩ : BufTy).Contents (Elt F)),
    binary main_v157 main_v178 main_v179 (addf : (⟨S4096x1024, .f32⟩ : BufTy).Contents (Elt F) → (⟨S4096x1024, .f32⟩ : BufTy).Contents (Elt F) → (⟨S4096x1024, .f32⟩ : BufTy).Contents (Elt F)),
    reshape main_v179 main_v180 rfl shapeCasts_S4096x1024_S2x2048x1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., reshape_bufs_sub .., nullary_bufs_sub .., unary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., reshape_bufs_sub .., unary_bufs_sub .., binary_bufs_sub .., unary_bufs_sub .., binary_bufs_sub .., binary_bufs_sub .., reshape_bufs_sub ..⟩

set_option maxRecDepth 8192 in
/-- The result as a term of the argument arrays: the operations composed, from the three flattenings to the last view. -/
def res_main_v180 (m : (ℓ : Loc nD τ sig) → Buf (Elt F) ℓ) (c : Dev nD) : Buf (Elt F) ((c.tc : Thread nD τ).loc main_v180) :=
  shapeCast _ (addf (addf (addf (addf (addf (addf (addf (addf (broadcastInDim S4096x1024 ![] bcast_S_S4096x1024 (constant S_ .f32 0x00000000#32)) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 0#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![0, 0, 0] (m ((c.tc : Thread nD τ).loc main_arg3)) slices_S8x4096x1024_S1x4096x1024_0_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![0, 0, 0] (m ((c.tc : Thread nD τ).loc main_arg3)) slices_S8x4096x1024_S1x4096x1024_0_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![0, 0, 0] (m ((c.tc : Thread nD τ).loc main_arg4)) slices_S8x4096x1024_S1x4096x1024_0_0_0) shapeCasts_S1x4096x1024_S4096x1024) transposes_S4096x1024_S1024x4096_1_0))) (transpose S4096x1024 [1, 0] (shapeCast _ (extractStridedSlice S1x1024x4096 ![0, 0, 0] (m ((c.tc : Thread nD τ).loc main_arg5)) slices_S8x1024x4096_S1x1024x4096_0_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 1#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![1, 0, 0] (m ((c.tc : Thread nD τ).loc main_arg3)) slices_S8x4096x1024_S1x4096x1024_1_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![1, 0, 0] (m ((c.tc : Thread nD τ).loc main_arg3)) slices_S8x4096x1024_S1x4096x1024_1_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![1, 0, 0] (m ((c.tc : Thread nD τ).loc main_arg4)) slices_S8x4096x1024_S1x4096x1024_1_0_0) shapeCasts_S1x4096x1024_S4096x1024) transposes_S4096x1024_S1024x4096_1_0))) (transpose S4096x1024 [1, 0] (shapeCast _ (extractStridedSlice S1x1024x4096 ![1, 0, 0] (m ((c.tc : Thread nD τ).loc main_arg5)) slices_S8x1024x4096_S1x1024x4096_1_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 2#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![2, 0, 0] (m ((c.tc : Thread nD τ).loc main_arg3)) slices_S8x4096x1024_S1x4096x1024_2_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![2, 0, 0] (m ((c.tc : Thread nD τ).loc main_arg3)) slices_S8x4096x1024_S1x4096x1024_2_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![2, 0, 0] (m ((c.tc : Thread nD τ).loc main_arg4)) slices_S8x4096x1024_S1x4096x1024_2_0_0) shapeCasts_S1x4096x1024_S4096x1024) transposes_S4096x1024_S1024x4096_1_0))) (transpose S4096x1024 [1, 0] (shapeCast _ (extractStridedSlice S1x1024x4096 ![2, 0, 0] (m ((c.tc : Thread nD τ).loc main_arg5)) slices_S8x1024x4096_S1x1024x4096_2_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 3#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![3, 0, 0] (m ((c.tc : Thread nD τ).loc main_arg3)) slices_S8x4096x1024_S1x4096x1024_3_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![3, 0, 0] (m ((c.tc : Thread nD τ).loc main_arg3)) slices_S8x4096x1024_S1x4096x1024_3_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![3, 0, 0] (m ((c.tc : Thread nD τ).loc main_arg4)) slices_S8x4096x1024_S1x4096x1024_3_0_0) shapeCasts_S1x4096x1024_S4096x1024) transposes_S4096x1024_S1024x4096_1_0))) (transpose S4096x1024 [1, 0] (shapeCast _ (extractStridedSlice S1x1024x4096 ![3, 0, 0] (m ((c.tc : Thread nD τ).loc main_arg5)) slices_S8x1024x4096_S1x1024x4096_3_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 4#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![4, 0, 0] (m ((c.tc : Thread nD τ).loc main_arg3)) slices_S8x4096x1024_S1x4096x1024_4_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![4, 0, 0] (m ((c.tc : Thread nD τ).loc main_arg3)) slices_S8x4096x1024_S1x4096x1024_4_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![4, 0, 0] (m ((c.tc : Thread nD τ).loc main_arg4)) slices_S8x4096x1024_S1x4096x1024_4_0_0) shapeCasts_S1x4096x1024_S4096x1024) transposes_S4096x1024_S1024x4096_1_0))) (transpose S4096x1024 [1, 0] (shapeCast _ (extractStridedSlice S1x1024x4096 ![4, 0, 0] (m ((c.tc : Thread nD τ).loc main_arg5)) slices_S8x1024x4096_S1x1024x4096_4_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 5#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![5, 0, 0] (m ((c.tc : Thread nD τ).loc main_arg3)) slices_S8x4096x1024_S1x4096x1024_5_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![5, 0, 0] (m ((c.tc : Thread nD τ).loc main_arg3)) slices_S8x4096x1024_S1x4096x1024_5_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![5, 0, 0] (m ((c.tc : Thread nD τ).loc main_arg4)) slices_S8x4096x1024_S1x4096x1024_5_0_0) shapeCasts_S1x4096x1024_S4096x1024) transposes_S4096x1024_S1024x4096_1_0))) (transpose S4096x1024 [1, 0] (shapeCast _ (extractStridedSlice S1x1024x4096 ![5, 0, 0] (m ((c.tc : Thread nD τ).loc main_arg5)) slices_S8x1024x4096_S1x1024x4096_5_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 6#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![6, 0, 0] (m ((c.tc : Thread nD τ).loc main_arg3)) slices_S8x4096x1024_S1x4096x1024_6_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![6, 0, 0] (m ((c.tc : Thread nD τ).loc main_arg3)) slices_S8x4096x1024_S1x4096x1024_6_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![6, 0, 0] (m ((c.tc : Thread nD τ).loc main_arg4)) slices_S8x4096x1024_S1x4096x1024_6_0_0) shapeCasts_S1x4096x1024_S4096x1024) transposes_S4096x1024_S1024x4096_1_0))) (transpose S4096x1024 [1, 0] (shapeCast _ (extractStridedSlice S1x1024x4096 ![6, 0, 0] (m ((c.tc : Thread nD τ).loc main_arg5)) slices_S8x1024x4096_S1x1024x4096_6_0_0) shapeCasts_S1x1024x4096_S1024x4096) transposes_S1024x4096_S4096x1024_1_0)))) (mulf (broadcastInDim S4096x1024 ![0, 1] bcast_S4096x1_S4096x1024_0_1 (broadcastInDim S4096x1 ![0] bcast_S4096_S4096x1_0 (Host.reduceAdd (select (cmpi .eq (shapeCast _ (m ((c.tc : Thread nD τ).loc main_arg1)) shapeCasts_S2x2048x2_S4096x2) (broadcastInDim S4096x2 ![] bcast_S_S4096x2 (constantI S_ 32 7#32))) (shapeCast _ (m ((c.tc : Thread nD τ).loc main_arg2)) shapeCasts_S2x2048x2_S4096x2) (broadcastInDim S4096x2 ![] bcast_S_S4096x2 (id (constant S_ .f32 0x00000000#32)))) (constant S_ .f32 0x00000000#32) reducesTo_S4096x2_S4096_d1 h_S_))) (Host.dotGeneral dot_S4096x4096_S4096x1024_S4096x1024_1_0_0_1_n_n none (mulf (mulf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![7, 0, 0] (m ((c.tc : Thread nD τ).loc main_arg3)) slices_S8x4096x1024_S1x4096x1024_7_0_0) shapeCasts_S1x4096x1024_S4096x1024) transposes_S4096x1024_S1024x4096_1_0)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![7, 0, 0] (m ((c.tc : Thread nD τ).loc main_arg3)) slices_S8x4096x1024_S1x4096x1024_7_0_0) shapeCasts_S1x4096x1024_S4096x1024) transposes_S4096x1024_S1024x4096_1_0))))))) (Host.dotGeneral dot_S4096x1024_S1024x4096_S4096x4096_1_0_0_1_n_n none (shapeCast _ (m ((c.tc : Thread nD τ).loc main_arg0)) shapeCasts_S2x2048x1024_S4096x1024) (transpose S1024x4096 [1, 0] (shapeCast _ (extractStridedSlice S1x4096x1024 ![7, 0, 0] (m ((c.tc : Thread nD τ).loc main_arg4)) slices_S8x4096x1024_S1x4096x1024_7_0_0) shapeCasts_S1x4096x1024_S4096x1024) transposes_S4096x1024_S1024x4096_1_0))) (transpose S4096x1024 [1, 0] (shapeCast _ (extractStridedSlice S1x1024x4096 ![7, 0, 0] (m ((c.tc : Thread nD τ).loc main_arg5)) slices_S8x1024x4096_S1x1024x4096_7_0_0) shapeCasts_S1x1024x4096_S1024x4096) transposes_S1024x4096_S4096x1024_1_0)))) shapeCasts_S4096x1024_S2x2048x1024

set_option maxRecDepth 8192 in
set_option maxHeartbeats 114400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = res_main_v180 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v180).trans (by after_results_simp <;> rfl <;> (unfold res_main_v180; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.RefValue.lean ====
/-
  The reference's flattened result as a term of its flattened arguments.

  After the three reshapes the reference starts from the zero array and, for each of the 8 experts in turn, adds
  the expert's weighted down projection: the routing weight (the sum over the two slots of the slot's weight where
  the slot's word is the expert's, zero elsewhere) broadcast along the features, times the product of
  (silu(x · gateᵀ) · (x · upᵀ)) with downᵀ, where silu g = g · (1 / (1 + exp(−g))). The definitions below spell
  that term with the operations of the printed program, one definition per stage, the expert's slice offsets and
  comparison word as parameters.
-/
import proofs.«164786_j4647154615097_1_alg».proof.Proof.Gen.ReferenceIdeal

noncomputable section

namespace Cert.ReferenceIdeal.RefValue

open Cert.ReferenceIdeal Cert.ReferenceIdeal.Gen Idealize.ShloMosaic

variable {F : FTy → Type} [FloatOps F]

/-- One expert's block of a [8, 4096, 1024] weight array as a [1024, 4096] matrix: slice, drop the unit axis, transpose. -/
def upMat (w : FVec F S8x4096x1024 .f32) (off : Fin 3 → Nat) (hs : S8x4096x1024.Slices off S1x4096x1024) :
    FVec F S1024x4096 .f32 :=
  transpose S1024x4096 [1, 0] (shapeCast _ (extractStridedSlice S1x4096x1024 off w hs) shapeCasts_S1x4096x1024_S4096x1024) transposes_S4096x1024_S1024x4096_1_0

/-- One expert's block of the [8, 1024, 4096] down array as a [4096, 1024] matrix. -/
def downMat (w : FVec F S8x1024x4096 .f32) (off : Fin 3 → Nat) (hs : S8x1024x4096.Slices off S1x1024x4096) :
    FVec F S4096x1024 .f32 :=
  transpose S4096x1024 [1, 0] (shapeCast _ (extractStridedSlice S1x1024x4096 off w hs) shapeCasts_S1x1024x4096_S1024x4096) transposes_S1024x4096_S4096x1024_1_0

/-- The tokens times one expert's gate (or up) matrix: [4096, 1024] × [1024, 4096]. -/
def projOf (xf : FVec F S4096x1024 .f32) (w : FVec F S8x4096x1024 .f32) (off : Fin 3 → Nat)
    (hs : S8x4096x1024.Slices off S1x4096x1024) : FVec F S4096x4096 .f32 :=
  Host.dotGeneral dot_S4096x1024_S1024x4096_S4096x4096_1_0_0_1_n_n none xf (upMat w off hs)

/-- silu g = g · (1 / (1 + exp(−g))), elementwise, the two ones scalar constants broadcast. -/
def siluOf (g : FVec F S4096x4096 .f32) : FVec F S4096x4096 .f32 :=
  mulf g (Host.divf (broadcastInDim S4096x4096 ![] bcast_S_S4096x4096 (constant S_ .f32 0x3F800000#32)) (addf (broadcastInDim S4096x4096 ![] bcast_S_S4096x4096 (constant S_ .f32 0x3F800000#32)) (Host.exp (Host.negf g))))

/-- The expert's routing weight per token: where the slot's word equals the expert's word the slot's weight, else
    zero, summed over the two slots from zero. -/
def weightOf (eif : IVec S4096x2 32) (ewf : FVec F S4096x2 .f32) (word : BitVec 32) : FVec F S4096 .f32 :=
  Host.reduceAdd (select (cmpi .eq eif (broadcastInDim S4096x2 ![] bcast_S_S4096x2 (constantI S_ 32 word))) ewf (broadcastInDim S4096x2 ![] bcast_S_S4096x2 (id (constant S_ .f32 0x00000000#32)))) (constant S_ .f32 0x00000000#32) reducesTo_S4096x2_S4096_d1 h_S_

/-- One expert's addend: its routing weight broadcast along the features, times its down projection of
    silu(gate) · up. -/
def expertTerm (xf : FVec F S4096x1024 .f32) (eif : IVec S4096x2 32) (ewf : FVec F S4096x2 .f32)
    (gp up : FVec F S8x4096x1024 .f32) (dp : FVec F S8x1024x4096 .f32) (word : BitVec 32) (off : Fin 3 → Nat)
    (hg : S8x4096x1024.Slices off S1x4096x1024) (hd : S8x1024x4096.Slices off S1x1024x4096) : FVec F S4096x1024 .f32 :=
  mulf (broadcastInDim S4096x1024 ![0, 1] bcast_S4096x1_S4096x1024_0_1 (broadcastInDim S4096x1 ![0] bcast_S4096_S4096x1_0 (weightOf eif ewf word)))
    (Host.dotGeneral dot_S4096x4096_S4096x1024_S4096x1024_1_0_0_1_n_n none (mulf (siluOf (projOf xf gp off hg)) (projOf xf up off hg)) (downMat dp off hd))

/-- The reference's flattened result: from the zero array, the 8 experts' addends added in order. -/
def flatOut (xf : FVec F S4096x1024 .f32) (eif : IVec S4096x2 32) (ewf : FVec F S4096x2 .f32)
    (gp up : FVec F S8x4096x1024 .f32) (dp : FVec F S8x1024x4096 .f32) : FVec F S4096x1024 .f32 :=
  addf (addf (addf (addf (addf (addf (addf (addf (broadcastInDim S4096x1024 ![] bcast_S_S4096x1024 (constant S_ .f32 0x00000000#32))
    (expertTerm xf eif ewf gp up dp 0#32 ![0, 0, 0] slices_S8x4096x1024_S1x4096x1024_0_0_0 slices_S8x1024x4096_S1x1024x4096_0_0_0))
    (expertTerm xf eif ewf gp up dp 1#32 ![1, 0, 0] slices_S8x4096x1024_S1x4096x1024_1_0_0 slices_S8x1024x4096_S1x1024x4096_1_0_0))
    (expertTerm xf eif ewf gp up dp 2#32 ![2, 0, 0] slices_S8x4096x1024_S1x4096x1024_2_0_0 slices_S8x1024x4096_S1x1024x4096_2_0_0))
    (expertTerm xf eif ewf gp up dp 3#32 ![3, 0, 0] slices_S8x4096x1024_S1x4096x1024_3_0_0 slices_S8x1024x4096_S1x1024x4096_3_0_0))
    (expertTerm xf eif ewf gp up dp 4#32 ![4, 0, 0] slices_S8x4096x1024_S1x4096x1024_4_0_0 slices_S8x1024x4096_S1x1024x4096_4_0_0))
    (expertTerm xf eif ewf gp up dp 5#32 ![5, 0, 0] slices_S8x4096x1024_S1x4096x1024_5_0_0 slices_S8x1024x4096_S1x1024x4096_5_0_0))
    (expertTerm xf eif ewf gp up dp 6#32 ![6, 0, 0] slices_S8x4096x1024_S1x4096x1024_6_0_0 slices_S8x1024x4096_S1x1024x4096_6_0_0))
    (expertTerm xf eif ewf gp up dp 7#32 ![7, 0, 0] slices_S8x4096x1024_S1x4096x1024_7_0_0 slices_S8x1024x4096_S1x1024x4096_7_0_0)

end Cert.ReferenceIdeal.RefValue

end
-- ==== Proof.RefJoin.lean ====
/-
  The reference run's composed result term is the flattened result of module RefValue, viewed as [2, 2048, 1024]:
  the two spell the same operations of the same arguments, so they are equal by unfolding.
-/
import proofs.«164786_j4647154615097_1_alg».proof.Proof.RefRun
import proofs.«164786_j4647154615097_1_alg».proof.Proof.RefValue

noncomputable section

namespace Cert.ReferenceIdeal.Join

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

set_option maxRecDepth 8192 in
theorem res_eq (m : (ℓ : Loc nD τ sig) → Buf (Elt F) ℓ) (c : Dev nD) :
    HostRun.res_main_v180 m c
    = shapeCast _ (flatOut (shapeCast _ (m ((c.tc : Thread nD τ).loc main_arg0)) shapeCasts_S2x2048x1024_S4096x1024) (shapeCast _ (m ((c.tc : Thread nD τ).loc main_arg1)) shapeCasts_S2x2048x2_S4096x2) (shapeCast _ (m ((c.tc : Thread nD τ).loc main_arg2)) shapeCasts_S2x2048x2_S4096x2) (m ((c.tc : Thread nD τ).loc main_arg3)) (m ((c.tc : Thread nD τ).loc main_arg4)) (m ((c.tc : Thread nD τ).loc main_arg5))) shapeCasts_S4096x1024_S2x2048x1024 := rfl

end Cert.ReferenceIdeal.Join

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.RefValueRead.lean ====
/-
  The reference's flattened result read at an index, on the extended reals.

  Each layout operation of an expert's stage reads one entry of its operand: the unit-thickness slice at offsets
  (e, 0, 0) of a weight array, viewed as a matrix and transposed, reads at (d, j) the array at (e, j, d); the
  routing weight broadcast to a column and along the features reads at (T, h) the weight of token T. Each product
  is the sum over its one contraction position, the slot reduction is its initial zero plus the sum over the two
  slots, and silu's quotient is the logistic function once the two constant words are read as one. So an
  expert's addend at (T, h) is its routing weight of T times its whole down projection at (T, h), and the
  8 additions from the zero array are the expert-by-expert accumulation after the last expert.
-/
import proofs.«164786_j4647154615097_1_alg».proof.Proof.RefValue
import proofs.«164786_j4647154615097_1_alg».proof.Proof.Spec
import proofs.«164786_j4647154615097_1_alg».proof.Proof.LibPlainDot
import proofs.«164786_j4647154615097_1_alg».proof.Proof.LibMergeRows
import proofs.«164786_j4647154615097_1_alg».proof.Proof.LibUnitAxis
import proofs.«164786_j4647154615097_1_alg».proof.Proof.LibRowBroadcasts
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-! ## Layout operations read at an index -/

/-- A block of unit thickness cut from a 3-axis array at offsets (e, 0, 0), read at (0, r, c), is the array at
    (e, r, c). -/
theorem slice_apply {α : Type} {n a b : Nat} (w : (⟨3, ![n, a, b]⟩ : Shape).Idx → α) (off : Fin 3 → Nat)
    (hs : (⟨3, ![n, a, b]⟩ : Shape).Slices off ⟨3, ![1, a, b]⟩) (e : Fin n)
    (h0 : off 0 = e.val) (h1 : off 1 = 0) (h2 : off 2 = 0) (r : Fin a) (c : Fin b) :
    extractStridedSlice ⟨3, ![1, a, b]⟩ off w hs (ix3 (0 : Fin 1) r c) = w (ix3 e r c) :=
  extractStridedSlice_apply off w hs _ _ fun ax => by
    match ax with
    | ⟨0, _⟩ => show e.val = off 0 + 0; omega
    | ⟨1, _⟩ => show r.val = off 1 + r.val; omega
    | ⟨2, _⟩ => show c.val = off 2 + c.val; omega

/-- A length-R vector laid out as an R × 1 column reads, at (p, ·), the vector at p. -/
theorem column_apply {α : Type} {R : Nat} (v : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h v (ix2 p u) = v (ix1 p) := by
  refine broadcastInDim_apply _ h v (ix2 p u) (ix1 p) fun ax => ?_
  match ax with
  | ⟨0, _⟩ =>
    show p.val = if R = 1 then 0 else p.val
    split
    · have := p.isLt; omega
    · rfl

variable {F : FTy → Type} [FloatOps F]

/-- Entry (d, j) of an expert's gate (or up) matrix is the weight array at (e, j, d). -/
theorem upMat_apply (w : FVec F S8x4096x1024 .f32) (off : Fin 3 → Nat) (hs : S8x4096x1024.Slices off S1x4096x1024)
    (e : Fin 8) (h0 : off 0 = e.val) (h1 : off 1 = 0) (h2 : off 2 = 0) (d : Fin 1024) (j : Fin 4096) :
    upMat w off hs (ix2 d j) = w (ix3 e j d) := by
  unfold upMat
  exact (Cert.Lib.MergeRows.transpose_apply _ _ d j).trans
    ((Cert.Lib.UnitAxis.drop_apply _ _ j d).trans (slice_apply w off hs e h0 h1 h2 j d))

/-- Entry (j, h) of an expert's down matrix is the down array at (e, h, j). -/
theorem downMat_apply (w : FVec F S8x1024x4096 .f32) (off : Fin 3 → Nat) (hs : S8x1024x4096.Slices off S1x1024x4096)
    (e : Fin 8) (h0 : off 0 = e.val) (h1 : off 1 = 0) (h2 : off 2 = 0) (j : Fin 4096) (h : Fin 1024) :
    downMat w off hs (ix2 j h) = w (ix3 e h j) := by
  unfold downMat
  exact (Cert.Lib.MergeRows.transpose_apply _ _ j h).trans
    ((Cert.Lib.UnitAxis.drop_apply _ _ h j).trans (slice_apply w off hs e h0 h1 h2 h j))

/-- A per-token vector broadcast to a column and then along the features reads, at (T, h), the vector at T. -/
theorem weightB_apply (v : FVec F S4096 .f32) (T : Fin 4096) (h : Fin 1024) :
    broadcastInDim S4096x1024 ![0, 1] bcast_S4096x1_S4096x1024_0_1 (broadcastInDim S4096x1 ![0] bcast_S4096_S4096x1_0 v) (ix2 T h)
      = v (ix1 T) :=
  (Cert.Lib.Rows.dimCol_apply _ _ T h).trans (column_apply _ _ T 0)

/-! ## The stages at the extended reals -/

/-- Selecting by an equality comparison of words is the conditional on the words' equality. -/
theorem select_cmpi_eq {α : Type} (x y : BitVec 32) (a b : α) :
    Scalar.select (IntOp.cmpi .eq x y) a b = if x = y then a else b := by
  show (if BitVec.ofBool (x == y) = 1#1 then a else b) = if x = y then a else b
  by_cases h : x = y
  · have hb : (x == y) = true := beq_iff_eq.mpr h
    rw [hb, if_pos h]; exact if_pos rfl
  · have hb : (x == y) = false := beq_eq_false_iff_ne.mpr h
    rw [hb, if_neg h]; exact if_neg (by decide)

/-- The gate (or up) projection at (T, j): the token's row against row j of the expert's weights. -/
theorem projOf_apply (xf : FVec Ideal S4096x1024 .f32) (w : FVec Ideal S8x4096x1024 .f32) (off : Fin 3 → Nat)
    (hs : S8x4096x1024.Slices off S1x4096x1024) (e : Fin 8) (h0 : off 0 = e.val) (h1 : off 1 = 0) (h2 : off 2 = 0)
    (T j : Fin 4096) : projOf xf w off hs (ix2 T j) = Cert.Moe.proj xf w e T j := by
  unfold projOf Cert.Moe.proj
  refine (Cert.Lib.PlainDot.dotGeneral_apply dot_S4096x1024_S1024x4096_S4096x4096_1_0_0_1_n_n_wf none xf
    (upMat w off hs) T j).trans ?_
  exact Finset.sum_congr rfl fun d _ => by rw [upMat_apply w off hs e h0 h1 h2 d j]

/-- silu of the gate projection times the up projection, at (T, j). -/
theorem inter_apply (xf : FVec Ideal S4096x1024 .f32) (gp up : FVec Ideal S8x4096x1024 .f32) (off : Fin 3 → Nat)
    (hg : S8x4096x1024.Slices off S1x4096x1024) (e : Fin 8) (h0 : off 0 = e.val) (h1 : off 1 = 0) (h2 : off 2 = 0)
    (T j : Fin 4096) :
    mulf (siluOf (projOf xf gp off hg)) (projOf xf up off hg) (ix2 T j) = Cert.Moe.inter xf gp up e T j := by
  show projOf xf gp off hg (ix2 T j)
      * Ideal.div (Ideal.ofBits .f32 0x3F800000#32)
          (Ideal.ofBits .f32 0x3F800000#32 + Ideal.exp (-(projOf xf gp off hg (ix2 T j))))
      * projOf xf up off hg (ix2 T j) = _
  rw [Ideal.ofBits_one_f32, projOf_apply xf gp off hg e h0 h1 h2 T j, projOf_apply xf up off hg e h0 h1 h2 T j]
  rfl

/-- The expert's down projection at (T, h). -/
theorem downDot_apply (xf : FVec Ideal S4096x1024 .f32) (gp up : FVec Ideal S8x4096x1024 .f32)
    (dp : FVec Ideal S8x1024x4096 .f32) (off : Fin 3 → Nat)
    (hg : S8x4096x1024.Slices off S1x4096x1024) (hd : S8x1024x4096.Slices off S1x1024x4096)
    (e : Fin 8) (h0 : off 0 = e.val) (h1 : off 1 = 0) (h2 : off 2 = 0) (T : Fin 4096) (h : Fin 1024) :
    Host.dotGeneral dot_S4096x4096_S4096x1024_S4096x1024_1_0_0_1_n_n none
        (mulf (siluOf (projOf xf gp off hg)) (projOf xf up off hg)) (downMat dp off hd) (ix2 T h)
      = Cert.Moe.fullDown xf gp up dp e T h := by
  unfold Cert.Moe.fullDown
  refine (Cert.Lib.PlainDot.dotGeneral_apply dot_S4096x4096_S4096x1024_S4096x1024_1_0_0_1_n_n_wf none
    (mulf (siluOf (projOf xf gp off hg)) (projOf xf up off hg)) (downMat dp off hd) T h).trans ?_
  exact Finset.sum_congr rfl fun j _ => by
    rw [inter_apply xf gp up off hg e h0 h1 h2 T j, downMat_apply dp off hd e h0 h1 h2 j h]

/-- The expert's routing weight of token T. -/
theorem weightOf_apply (eif : IVec S4096x2 32) (ewf : FVec Ideal S4096x2 .f32) (word : BitVec 32) (e : Fin 8)
    (hw : word = BitVec.ofNat 32 e.val) (T : Fin 4096) :
    weightOf eif ewf word (ix1 T) = Cert.Moe.weight eif ewf e T := by
  have hr : S4096x2.Reduces [1] S4096 := by decide
  unfold weightOf Cert.Moe.weight
  rw [hostReduceAdd_apply, Ideal.hostReduceAdd_single reducesTo_S4096x2_S4096_d1 hr]
  refine congrArg₂ (· + ·) Ideal.ofBits_zero_f32 (Finset.sum_congr rfl fun k _ => ?_)
  have hl : hr.lift (ix1 T) k = ix2 T k := funext fun ax =>
    match ax with
    | ⟨0, _⟩ => Fin.ext rfl
    | ⟨1, _⟩ => Fin.ext rfl
  rw [hl]
  show Scalar.select (IntOp.cmpi .eq (eif (ix2 T k)) word) (ewf (ix2 T k)) (Ideal.ofBits .f32 0x00000000#32) = _
  rw [select_cmpi_eq, Ideal.ofBits_zero_f32, hw]

/-- One expert's addend at (T, h): its routing weight of T times its down projection at (T, h). -/
theorem expertTerm_apply (xf : FVec Ideal S4096x1024 .f32) (eif : IVec S4096x2 32) (ewf : FVec Ideal S4096x2 .f32)
    (gp up : FVec Ideal S8x4096x1024 .f32) (dp : FVec Ideal S8x1024x4096 .f32) (word : BitVec 32) (off : Fin 3 → Nat)
    (hg : S8x4096x1024.Slices off S1x4096x1024) (hd : S8x1024x4096.Slices off S1x1024x4096)
    (e : Fin 8) (hw : word = BitVec.ofNat 32 e.val) (h0 : off 0 = e.val) (h1 : off 1 = 0) (h2 : off 2 = 0)
    (T : Fin 4096) (h : Fin 1024) :
    expertTerm xf eif ewf gp up dp word off hg hd (ix2 T h)
      = Cert.Moe.weight eif ewf e T * Cert.Moe.fullDown xf gp up dp e T h := by
  unfold expertTerm
  rw [mulf_apply, weightB_apply, weightOf_apply eif ewf word e hw T,
    downDot_apply xf gp up dp off hg hd e h0 h1 h2 T h]

/-- The reference's flattened result at (T, h): the expert-by-expert accumulation after the last expert. -/
theorem flatOut_apply (xf : FVec Ideal S4096x1024 .f32) (eif : IVec S4096x2 32) (ewf : FVec Ideal S4096x2 .f32)
    (gp up : FVec Ideal S8x4096x1024 .f32) (dp : FVec Ideal S8x1024x4096 .f32) (T : Fin 4096) (h : Fin 1024) :
    flatOut (F := Ideal) xf eif ewf gp up dp (ix2 T h) = Cert.Moe.racc xf eif ewf gp up dp T h 7 (by norm_num) := by
  have z : broadcastInDim S4096x1024 ![] bcast_S_S4096x1024 (constant (F := Ideal) S_ .f32 0x00000000#32) (ix2 T h) = 0 :=
    Ideal.ofBits_zero_f32
  unfold flatOut
  simp only [addf_apply]
  rw [z,
    expertTerm_apply xf eif ewf gp up dp 0#32 ![0, 0, 0] _ _ ⟨0, by norm_num⟩ rfl rfl rfl rfl T h,
    expertTerm_apply xf eif ewf gp up dp 1#32 ![1, 0, 0] _ _ ⟨1, by norm_num⟩ rfl rfl rfl rfl T h,
    expertTerm_apply xf eif ewf gp up dp 2#32 ![2, 0, 0] _ _ ⟨2, by norm_num⟩ rfl rfl rfl rfl T h,
    expertTerm_apply xf eif ewf gp up dp 3#32 ![3, 0, 0] _ _ ⟨3, by norm_num⟩ rfl rfl rfl rfl T h,
    expertTerm_apply xf eif ewf gp up dp 4#32 ![4, 0, 0] _ _ ⟨4, by norm_num⟩ rfl rfl rfl rfl T h,
    expertTerm_apply xf eif ewf gp up dp 5#32 ![5, 0, 0] _ _ ⟨5, by norm_num⟩ rfl rfl rfl rfl T h,
    expertTerm_apply xf eif ewf gp up dp 6#32 ![6, 0, 0] _ _ ⟨6, by norm_num⟩ rfl rfl rfl rfl T h,
    expertTerm_apply xf eif ewf gp up dp 7#32 ![7, 0, 0] _ _ ⟨7, by norm_num⟩ rfl rfl rfl rfl T h]
  rfl

end Cert.ReferenceIdeal.RefValue

end
-- ==== Proof.MoeLaw.lean ====
/-
  The algebra that joins the two arrangements of a dense mixture-of-experts layer, over the reals.

  On the extended reals addition is a commutative monoid, so sums may be reassociated and regrouped freely; but
  multiplication distributes over addition only away from opposite infinities. When every input entry is a real
  number, every projection, every SiLU product, every stretch of a down projection and every routing weight is a
  real number, and then   w · (∑ stretches) = ∑ w · stretch   holds as it does in ℝ. With that one law the 64
  weighted stretches, added one at a time, regroup into the 8 weighted whole down projections.
-/
import proofs.«164786_j4647154615097_1_alg».proof.Proof.Spec
import Mathlib.Algebra.BigOperators.Fin
import Mathlib.Logic.Equiv.Fin.Basic

noncomputable section

open scoped BigOperators

namespace Cert.Moe

open Idealize.ShloMosaic Idealize.ShloMosaic.ValueIdx

/-! ### Real numbers inside the extended reals -/

/-- An extended real that is (the coercion of) a real number. -/
def IsReal (a : EReal) : Prop := ∃ r : ℝ, a = (r : EReal)

theorem IsReal.zero : IsReal 0 := ⟨0, EReal.coe_zero.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.ite {p : Prop} [Decidable p] {a b : EReal} (ha : IsReal a) (hb : IsReal b) :
    IsReal (if p then a else b) := by
  split <;> assumption

/-- A finite sum of reals is a real. -/
theorem IsReal.sum {ι : Type*} (s : Finset ι) (f : ι → EReal) (hf : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (hf a (Finset.mem_insert_self a s)).add (ih fun i hi => hf i (Finset.mem_insert_of_mem hi))

/-- The logistic function of a real is a real: 1 / (1 + e⁻ʳ). -/
theorem IsReal.logistic {a : EReal} (ha : IsReal a) : IsReal (Ideal.logistic a) := by
  obtain ⟨r, rfl⟩ := ha
  exact ⟨_, Ideal.logistic_coe r⟩

/-- A real factor distributes over a finite sum of reals (as in ℝ; on the extended reals at large it does not). -/
theorem mul_sum_of_real {ι : Type*} (s : Finset ι) (w : EReal) (f : ι → EReal) (hw : IsReal w)
    (hf : ∀ i ∈ s, IsReal (f i)) : w * ∑ i ∈ s, f i = ∑ i ∈ s, w * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha, ← ih hs]
    obtain ⟨r, rfl⟩ := hw
    obtain ⟨u, hu⟩ := hf a (Finset.mem_insert_self a s)
    obtain ⟨v, hv⟩ := IsReal.sum s f hs
    rw [hu, hv, ← EReal.coe_add, ← EReal.coe_mul, ← EReal.coe_mul, ← EReal.coe_mul, ← EReal.coe_add, mul_add]

/-! ### Regrouping a sum of m·n terms, n at a time (any commutative additive monoid) -/

/-- The sum over `Fin (m * n)` is the sum over the `m` stretches of length `n` of each stretch's sum; the term
    `(a, b)` sits at position `b + n * a`. -/
theorem sum_fin_prod {M : Type*} [AddCommMonoid M] (m n : ℕ) (g : Fin (m * n) → M) :
    ∑ j, g j = ∑ a : Fin m, ∑ b : Fin n, g (finProdFinEquiv (a, b)) := by
  rw [← Fintype.sum_prod_type (f := fun p : Fin m × Fin n => g (finProdFinEquiv p))]
  exact (Equiv.sum_comp finProdFinEquiv g).symm

/-- The 8 stretches of 512 intermediate features exhaust the 4096 intermediate features. -/
theorem sum_col {M : Type*} [AddCommMonoid M] (g : Fin 4096 → M) :
    ∑ ic : Fin 8, ∑ jj : Fin 512, g (col ic jj) = ∑ j, g j := by
  refine ((sum_fin_prod 8 512 g).trans
    (Finset.sum_congr rfl fun ic _ => Finset.sum_congr rfl fun jj _ => congrArg g (Fin.ext ?_))).symm
  show jj.val + 512 * ic.val = 512 * ic.val + jj.val
  omega

/-! ### The layer's quantities are real when the inputs are -/

section
variable (x : STok.Idx → EReal) (ei : SSlot.Idx → BitVec 32) (ew : SSlot.Idx → EReal)
  (gp up : SUp.Idx → EReal) (dp : SDown.Idx → EReal)

theorem weight_real (hew : ∀ i, IsReal (ew i)) (e : Fin 8) (T : Fin 4096) : IsReal (weight ei ew e T) :=
  IsReal.zero.add (IsReal.sum _ _ fun _ _ => IsReal.ite (hew _) IsReal.zero)

theorem proj_real (hx : ∀ i, IsReal (x i)) (w : SUp.Idx → EReal) (hw : ∀ i, IsReal (w i))
    (e : Fin 8) (T : Fin 4096) (j : Fin 4096) : IsReal (proj x w e T j) :=
  IsReal.sum _ _ fun _ _ => (hx _).mul (hw _)

theorem inter_real (hx : ∀ i, IsReal (x i)) (hgp : ∀ i, IsReal (gp i)) (hup : ∀ i, IsReal (up i))
    (e : Fin 8) (T : Fin 4096) (j : Fin 4096) : IsReal (inter x gp up e T j) :=
  ((proj_real x hx gp hgp e T j).mul (proj_real x hx gp hgp e T j).logistic).mul (proj_real x hx up hup e T j)

theorem partDown_real (hx : ∀ i, IsReal (x i)) (hgp : ∀ i, IsReal (gp i)) (hup : ∀ i, IsReal (up i))
    (hdp : ∀ i, IsReal (dp i)) (e ic : Fin 8) (T : Fin 4096) (h : Fin 1024) :
    IsReal (partDown x gp up dp e ic T h) :=
  IsReal.sum _ _ fun _ _ => (inter_real x gp up hx hgp hup e T _).mul (hdp _)

/-! ### The two accumulations as sums -/

/-- After step `s` the stretch-by-stretch accumulation is the sum of the first `s + 1` weighted stretches. -/
theorem kacc_eq_sum (T : Fin 4096) (h : Fin 1024) : ∀ (s : ℕ) (hs : s < 64),
    kacc x ei ew gp up dp T h s hs
      = ∑ i : Fin (s + 1), kterm x ei ew gp up dp T h i.val (Nat.lt_of_lt_of_le i.isLt hs)
  | 0, hs => by
    rw [kacc, zero_add, Fin.sum_univ_one]
    rfl
  | s + 1, hs => by
    rw [kacc, kacc_eq_sum T h s (Nat.lt_of_succ_lt hs), Fin.sum_univ_castSucc (n := s + 1)]
    rfl

/-- After expert `n` the expert-by-expert accumulation is the sum of the first `n + 1` weighted projections. -/
theorem racc_eq_sum (T : Fin 4096) (h : Fin 1024) : ∀ (n : ℕ) (hn : n < 8),
    racc x ei ew gp up dp T h n hn
      = ∑ e : Fin (n + 1), weight ei ew ⟨e.val, Nat.lt_of_lt_of_le e.isLt hn⟩ T
          * fullDown x gp up dp ⟨e.val, Nat.lt_of_lt_of_le e.isLt hn⟩ T h
  | 0, hn => by
    rw [racc, zero_add, Fin.sum_univ_one]
    rfl
  | n + 1, hn => by
    rw [racc, racc_eq_sum T h n (Nat.lt_of_succ_lt hn), Fin.sum_univ_castSucc (n := n + 1)]
    rfl

/-- Step `ic + 8·e` adds stretch `ic` of expert `e`. -/
theorem kterm_pair (T : Fin 4096) (h : Fin 1024) (e ic : Fin 8) (hlt : ic.val + 8 * e.val < 64) :
    kterm x ei ew gp up dp T h (ic.val + 8 * e.val) hlt
      = weight ei ew e T * partDown x gp up dp e ic T h := by
  have h1 : (⟨(ic.val + 8 * e.val) / 8, by omega⟩ : Fin 8) = e := Fin.ext (by show (ic.val + 8 * e.val) / 8 = e.val; omega)
  have h2 : (⟨(ic.val + 8 * e.val) % 8, by omega⟩ : Fin 8) = ic := Fin.ext (by show (ic.val + 8 * e.val) % 8 = ic.val; omega)
  rw [kterm, h1, h2]

/-- The 8 stretches of a down projection add up to the whole down projection. -/
theorem sum_partDown (e : Fin 8) (T : Fin 4096) (h : Fin 1024) :
    ∑ ic : Fin 8, partDown x gp up dp e ic T h = fullDown x gp up dp e T h :=
  sum_col fun j => inter x gp up e T j * dp (ix3 e h j)

/-- With real inputs, adding the 64 weighted stretches one at a time gives the same as adding the 8 weighted whole
    down projections one at a time. -/
theorem kacc_eq_racc
    (hx : ∀ i, ∃ r : ℝ, x i = (r : EReal)) (hew : ∀ i, ∃ r : ℝ, ew i = (r : EReal))
    (hgp : ∀ i, ∃ r : ℝ, gp i = (r : EReal)) (hup : ∀ i, ∃ r : ℝ, up i = (r : EReal))
    (hdp : ∀ i, ∃ r : ℝ, dp i = (r : EReal)) (T : Fin 4096) (h : Fin 1024) :
    kacc x ei ew gp up dp T h 63 (by norm_num) = racc x ei ew gp up dp T h 7 (by norm_num) := by
  -- the 64 steps, as the pairs (expert, stretch)
  have hK : ∑ i : Fin 64, kterm x ei ew gp up dp T h i.val i.isLt
      = ∑ e : Fin 8, ∑ ic : Fin 8, weight ei ew e T * partDown x gp up dp e ic T h :=
    (sum_fin_prod 8 8 fun i : Fin 64 => kterm x ei ew gp up dp T h i.val i.isLt).trans
      (Finset.sum_congr rfl fun e _ => Finset.sum_congr rfl fun ic _ =>
        kterm_pair x ei ew gp up dp T h e ic _)
  -- each expert's 8 weighted stretches are its weight times its whole down projection
  have hE : ∀ e : Fin 8, ∑ ic : Fin 8, weight ei ew e T * partDown x gp up dp e ic T h
      = weight ei ew e T * fullDown x gp up dp e T h := fun e => by
    rw [← mul_sum_of_real _ _ _ (weight_real ei ew hew e T)
      (fun ic _ => partDown_real x gp up dp hx hgp hup hdp e ic T h), sum_partDown]
  exact (kacc_eq_sum x ei ew gp up dp T h 63 _).trans
    ((hK.trans (Finset.sum_congr rfl fun e _ => hE e)).trans (racc_eq_sum x ei ew gp up dp T h 7 _).symm)

end

end Cert.Moe

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.Finite.lean ====
/-
  The precondition, read back: every entry of the five floating-point arguments is a real number.

  The precondition is a conjunction of five "every entry is finite" tests. Each test compares, entry by entry, the
  absolute value of the argument with the f32 pattern of +∞, strictly, and reduces the resulting bits by `and` over
  all axes. The conjunction being 1 gives each test being 1; a reduction by `and` into a single result being 1 gives
  each compared bit being 1; and on the extended reals |a| < +∞ holds exactly when `a` is a real number.
-/
import proofs.«164786_j4647154615097_1_alg».proof.Pre_finite_inputs
import proofs.«164786_j4647154615097_1_alg».proof.Proof.LibFiniteReal
import Idealize.ShloMosaic.Lib.ReduceAll
import Idealize.ShloMosaic.Lib.ValueIdx

noncomputable section

namespace Cert.Moe

open Idealize.ShloMosaic Idealize.ShloMosaic.ValueIdx
open Cert.Pre_finite_inputs

/-- The rank-0 shape of the tests' results has one index. -/
instance subsingleton_S_ : Subsingleton S_.Idx := Cert.Lib.FiniteReal.subsingleton_idx0

/-- One test: if the `and` over all axes of `|a| < +∞` is 1, every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf a) (broadcastInDim s ![] hb (constant S_ .f32 0x7F800000#32))) init hr hu j = 1#1)
    (i : s.Idx) : ∃ r : ℝ, a i = (r : EReal) :=
  Cert.Lib.FiniteReal.real_of_abs_lt_inf (a i) (Host.reduce_andi_all _ init hr hu j e i)

variable [Cert.Pre_finite_inputs.Facts]

/-- The precondition gives: every entry of the five floating-point arguments is a real number. -/
theorem real_of_pre (a0 : FVec Ideal S2x2048x1024 .f32) (a1 : IVec S2x2048x2 32) (a2 : FVec Ideal S2x2048x2 .f32)
    (a3 a4 : FVec Ideal S8x4096x1024 .f32) (a5 : FVec Ideal S8x1024x4096 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1, andi] at h0
  obtain ⟨h0234, h5⟩ := IntOp.andi_eq_one.1 h0
  obtain ⟨h023, h4⟩ := IntOp.andi_eq_one.1 h0234
  obtain ⟨h02, h3⟩ := IntOp.andi_eq_one.1 h023
  obtain ⟨h0', h2⟩ := IntOp.andi_eq_one.1 h02
  exact ⟨real_of_all a0 _ _ _ _ _ h0', real_of_all a2 _ _ _ _ _ h2, real_of_all a3 _ _ _ _ _ h3,
    real_of_all a4 _ _ _ _ _ h4, real_of_all a5 _ _ _ _ _ h5⟩

end Cert.Moe

end
-- ==== Proof.lean ====
/-
  A dense mixture-of-experts layer (8 experts, top-2 routing, SiLU-gated projections) as a tiled kernel against
  its plain reference, on the extended reals.

  Both programs flatten the activations to 4096 tokens and compute, for token T and feature h,
      out(T, h) = ∑ over the experts e of  w_e(T) · ∑ j, inter_e(T, j) · down_e(h, j),
  where w_e(T) is the token's routing weight for expert e and inter_e = silu(x · gate_eᵀ) · (x · up_eᵀ).
  The reference adds the 8 experts' whole down projections in turn. The kernel walks a grid of 4 token tiles ×
  8 experts × 8 stretches of 512 intermediate features, keeps a running accumulator per tile, resets it at the
  tile's first point, adds the routing weight times the stretch's part of the down projection at every point, and
  writes the accumulator out after the tile's last point: 64 addends per entry instead of 8.

  The two are the same sum once w_e · (∑ of 8 stretches) is distributed over the stretches. On the extended
  reals that law needs the weight and the stretches to be real numbers, which they are because every float input
  is finite: inner products, the logistic function, products and finite sums of reals are reals. Regrouping the
  4096 intermediate features into 8 stretches of 512 and re-associating the additions need no finiteness.
  The kernel's narrowing of its operands to a shorter float format is the identity on the extended reals, and
  the kernel's logistic is the reference's 1 / (1 + exp(−g)).

  The kernel's frames are the generated ones; the reference's frame is its run with the result dropped; the
  idealization rewrote nothing.
-/
import proofs.«164786_j4647154615097_1_alg».proof.Defs
import proofs.«164786_j4647154615097_1_alg».proof.Proof.Gen.Kernel
import proofs.«164786_j4647154615097_1_alg».proof.Proof.Gen.Kernel.Skeleton
import proofs.«164786_j4647154615097_1_alg».proof.Proof.Gen.Kernel.Launch
import proofs.«164786_j4647154615097_1_alg».proof.Proof.Gen.Kernel.Points
import proofs.«164786_j4647154615097_1_alg».proof.Proof.Gen.Kernel.Frame
import proofs.«164786_j4647154615097_1_alg».proof.Proof.Gen.KernelIdeal
import proofs.«164786_j4647154615097_1_alg».proof.Proof.Gen.KernelIdeal.Skeleton
import proofs.«164786_j4647154615097_1_alg».proof.Proof.Gen.KernelIdeal.Launch
import proofs.«164786_j4647154615097_1_alg».proof.Proof.Gen.KernelIdeal.Points
import proofs.«164786_j4647154615097_1_alg».proof.Proof.Gen.KernelIdeal.Frame
import proofs.«164786_j4647154615097_1_alg».proof.Proof.Gen.ReferenceIdeal
import proofs.«164786_j4647154615097_1_alg».proof.Proof.Gen.Pre_finite_inputs
import proofs.«164786_j4647154615097_1_alg».proof.Proof.KernelValue
import proofs.«164786_j4647154615097_1_alg».proof.Proof.RefRun
import proofs.«164786_j4647154615097_1_alg».proof.Proof.RefJoin
import proofs.«164786_j4647154615097_1_alg».proof.Proof.RefValueRead
import proofs.«164786_j4647154615097_1_alg».proof.Proof.MoeLaw
import proofs.«164786_j4647154615097_1_alg».proof.Proof.Finite
import Idealize.ShloMosaic.Adequacy
import Idealize.ShloMosaic.Init

noncomputable section

namespace Cert.Proof

open Idealize.ShloMosaic Idealize.SL.Sem Idealize.ShloMosaic.ValueIdx

/-- A flattening is a re-indexing: every entry of the flattened array is an entry of the array. -/
theorem real_shapeCast {s t : Shape} (x : s.Idx → EReal) (hc : s.ShapeCasts t) (hx : ∀ i, ∃ r : ℝ, x i = (r : EReal)) (j : t.Idx) :
    ∃ r : ℝ, shapeCast t x hc j = (r : EReal) := by
  unfold shapeCast
  exact hx _

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- From memories that agree on the arguments, the kernel's result array ends at the stretch-by-stretch
    accumulation and the reference's at the expert-by-expert one, both viewed as [2, 2048, 1024]; the inputs being
    finite, the two accumulations are equal entry by entry. -/
theorem algebraic : Cert.algebraic_KernelIdeal_ReferenceIdeal := by
  intro m ρ m' ρ' hpre hagree
  refine ⟨fun c => shapeCast _ (Cert.KernelIdeal.Final.flatOut m c) Cert.KernelIdeal.Facts₀.shapeCasts_S4096x1024_S2x2048x1024,
    Cert.KernelIdeal.Final.run m ρ, ?_⟩
  refine (θ_run Cert.ReferenceIdeal.defs _ _).mono (fun _ h c => ⟨(h c).1.trans ?_, (h c).2⟩)
    (Cert.ReferenceIdeal.HostRun.run (F := Ideal) m' ρ')
  show _ = shapeCast Cert.KernelIdeal.S2x2048x1024 (Cert.KernelIdeal.Final.flatOut m c) Cert.KernelIdeal.Facts₀.shapeCasts_S4096x1024_S2x2048x1024
  rw [Cert.ReferenceIdeal.Join.res_eq (F := Ideal) m' c, (hagree c).1, (hagree c).2.1, (hagree c).2.2.1, (hagree c).2.2.2.1, (hagree c).2.2.2.2.1,
    (hagree c).2.2.2.2.2]
  obtain ⟨h0, h2, h3, h4, h5⟩ := Cert.Moe.real_of_pre _ _ _ _ _ _ (hpre c)
  refine congrArg (fun v => shapeCast Cert.KernelIdeal.S2x2048x1024 v Cert.KernelIdeal.Facts₀.shapeCasts_S4096x1024_S2x2048x1024) ?_
  funext i
  obtain ⟨T, h, rfl⟩ : ∃ (T : Fin 4096) (h : Fin 1024), i = ix2 T h := ⟨i 0, i 1, eq_ix2 i⟩
  rw [Cert.ReferenceIdeal.RefValue.flatOut_apply]
  exact (Cert.Moe.kacc_eq_racc _ _ _ _ _ _ (real_shapeCast _ _ h0) (real_shapeCast _ _ h2) h3 h4 h5 T h).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
